-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S2048x1024 : Shape := ⟨2, ![2048, 1024]⟩
abbrev S2048 : Shape := ⟨1, ![2048]⟩
abbrev S512x2048 : Shape := ⟨2, ![512, 2048]⟩
abbrev S512 : Shape := ⟨1, ![512]⟩
abbrev S100000x512 : Shape := ⟨2, ![100000, 512]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_
  bcast_S_S100000x512 : S_.BroadcastsInDim S100000x512 (![] : Fin 0 → Fin S100000x512.rank)
  reducesTo_S100000x512_S_d0_1 : S100000x512.ReducesTo [0, 1] S_

variable [Facts]

def fn_part1 {F : FTy → Type} [FloatOps F] (main_arg4 : FVec F S512 .f32) (main_arg5 : FVec F S100000x512 .f32) (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S100000x512 .f32 := Host.absf main_arg5
  let main_cst_8 : FVec F S_ .f32 := constant S_ .f32 0x7F800000#32
  let main_v25 : FVec F S100000x512 .f32 := broadcastInDim S100000x512 ![] bcast_S_S100000x512 main_cst_8
  let main_v26 : IVec S100000x512 1 := cmpf .olt main_v24 main_v25
  let main_c_9 : IVec S_ 1 := constantI S_ 1 1#1
  let main_v27 : IVec S_ 1 := (fun x v => Host.reduce IntOp.andi x v reducesTo_S100000x512_S_d0_1 h_S_) main_v26 main_c_9
  let main_v28 : IVec S_ 1 := andi main_v23 main_v27
  main_v28

def fn {F : FTy → Type} [FloatOps F] (main_arg0 : FVec F S1024x1024 .f32) (main_arg1 : FVec F S2048x1024 .f32) (main_arg2 : FVec F S2048 .f32) (main_arg3 : FVec F S512x2048 .f32) (main_arg4 : FVec F S512 .f32) (main_arg5 : FVec F S100000x512 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S512x2048 .f32 := Host.absf main_arg3
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_arg4 main_arg5 main_v13 main_v16
-- ==== Kernel.lean ====
abbrev S1024x1024 : Shape := ⟨2, ![1024, 1024]⟩
abbrev S2048x1024 : Shape := ⟨2, ![2048, 1024]⟩
abbrev S2048 : Shape := ⟨1, ![2048]⟩
abbrev S512x2048 : Shape := ⟨2, ![512, 2048]⟩
abbrev S512 : Shape := ⟨1, ![512]⟩
abbrev S100000x512 : Shape := ⟨2, ![100000, 512]⟩
abbrev S1024x512 : Shape := ⟨2, ![1024, 512]⟩
abbrev S512x1024 : Shape := ⟨2, ![512, 1024]⟩
abbrev S512x512 : Shape := ⟨2, ![512, 512]⟩
abbrev S1x2048 : Shape := ⟨2, ![1, 2048]⟩
abbrev S1x512 : Shape := ⟨2, ![1, 512]⟩
abbrev S512x1 : Shape := ⟨2, ![512, 1]⟩
abbrev S1024x100000 : Shape := ⟨2, ![1024, 100000]⟩
abbrev S2048x512 : Shape := ⟨2, ![2048, 512]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 10
  | .vmem => 13
  | .smem => 0
  | _ => 0

abbrev bufTy : (tb : Table) → Fin (tcTables nBuf tb) → BufTy
  | .hbm, ⟨0, _⟩ => ⟨S1024x1024, .f32⟩
  | .hbm, ⟨1, _⟩ => ⟨S2048x1024, .f32⟩
  | .hbm, ⟨2, _⟩ => ⟨S2048, .f32⟩
  | .hbm, ⟨3, _⟩ => ⟨S512x2048, .f32⟩
  | .hbm, ⟨4, _⟩ => ⟨S512, .f32⟩
  | .hbm, ⟨5, _⟩ => ⟨S100000x512, .f32⟩
  | .hbm, ⟨6, _⟩ => ⟨S2048x1024, .bf16⟩
  | .hbm, ⟨7, _⟩ => ⟨S512x2048, .bf16⟩
  | .hbm, ⟨8, _⟩ => ⟨S1024x512, .f32⟩
  | .hbm, ⟨9, _⟩ => ⟨S1024x100000, .f32⟩
  | .local _ .vmem, ⟨0, _⟩ => ⟨S512x1024, .f32⟩
  | .local _ .vmem, ⟨1, _⟩ => ⟨S512x1024, .f32⟩
  | .local _ .vmem, ⟨2, _⟩ => ⟨S2048x1024, .bf16⟩
  | .local _ .vmem, ⟨3, _⟩ => ⟨S2048, .f32⟩
  | .local _ .vmem, ⟨4, _⟩ => ⟨S512x2048, .bf16⟩
  | .local _ .vmem, ⟨5, _⟩ => ⟨S512, .f32⟩
  | .local _ .vmem, ⟨6, _⟩ => ⟨S512x512, .f32⟩
  | .local _ .vmem, ⟨7, _⟩ => ⟨S512x512, .f32⟩
  | .local _ .vmem, ⟨8, _⟩ => ⟨S1024x512, .f32⟩
  | .local _ .vmem, ⟨9, _⟩ => ⟨S2048x512, .f32⟩
  | .local _ .vmem, ⟨10, _⟩ => ⟨S2048x512, .f32⟩
  | .local _ .vmem, ⟨11, _⟩ => ⟨S1024x2048, .f32⟩
  | .local _ .vmem, ⟨12, _⟩ => ⟨S1024x2048, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  reduces_S512x512_S512 : S512x512.Reduces [1] S512
  shapeCasts_S512_S512x1 : S512.ShapeCasts S512x1
  broadcasts_S512x1_S512x512 : S512x1.Broadcasts S512x512
  inb_S512x512_S512x512_0_0 : ∀ a, (![0, 0] : Fin 2 → Nat) a + S512x512.size a ≤ S512x512.size a
  h_S512x512 : 0 < S512x512.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S1024x512_0_0 : ∀ a, (![0, 0] : Fin 2 → Nat) a + S1024x512.size a ≤ S2048x512.size a
  reduces_S1024x512_S1024 : S1024x512.Reduces [1] S1024
  shapeCasts_S1024_S1024x1 : S1024.ShapeCasts S1024x1
  broadcasts_S1024x1_S1024x512 : S1024x1.Broadcasts S1024x512
  inb_S1024x2048_S1024x1024_0_0 : ∀ a, (![0, 0] : Fin 2 → Nat) a + S1024x1024.size a ≤ S1024x2048.size a
  h_S1024x1024 : 0 < S1024x1024.numel
  inb_S2048x512_S1024x512_1024_0 : ∀ a, (![1024, 0] : Fin 2 → Nat) a + S1024x512.size a ≤ S2048x512.size a
  inb_S1024x2048_S1024x1024_0_1024 : ∀ a, (![0, 1024] : Fin 2 → Nat) a + S1024x1024.size a ≤ S1024x2048.size a
  dot_S512x1024_S2048x1024_S512x2048_1_1_0_0_n_n_wf : DotDims.WF S512x1024 S2048x1024 S512x2048 [1] [1] [0] [0] [] []
  dot_S512x2048_S512x2048_S512x512_1_1_0_0_n_n_wf : DotDims.WF S512x2048 S512x2048 S512x512 [1] [1] [0] [0] [] []
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S1024x1024.size a
  hwx0_0 : ∀ i : grid0.Coords, EltTy.bits .f32 = 32 ∨ (Rect.block (s := S1024x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S2048.size a
  hwx0_2 : ∀ i : grid0.Coords, EltTy.bits .f32 = 32 ∨ (Rect.block (s := S2048) S2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .bf16 = 32 ∨ (Rect.block (s := S512x2048) S512x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S1024x512.size a
  hwx0_5 : ∀ i : grid0.Coords, EltTy.bits .f32 = 32 ∨ (Rect.block (s := S1024x512) S512x512.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S1024x512.size a
  hwx1_0 : ∀ i : grid1.Coords, EltTy.bits .f32 = 32 ∨ (Rect.block (s := S1024x512) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S2048x512.size a < S100000x512.size a
  hwx1_1 : ∀ i : grid1.Coords, EltTy.bits .f32 = 32 ∨ (Rect.unit (s := S100000x512) (fun a => cc1_transform_1 i a * S2048x512.size a) (fun a => (Pipeline.Clip.of (cc1_transform_1 i a) (S2048x512.size a) (S100000x512.size a)).extent (S2048x512.size a)) fun a => Pipeline.Clip.inb (Pipeline.Clip.ok_of (hstart1_1 i a))).WholeWords (EltTy.packing .f32)
  hwxs1_1 : ∀ i : grid1.Coords, EltTy.bits .f32 = 32 ∨ (Rect.unit (s := S2048x512) (fun _ => 0) (fun a => (Pipeline.Clip.of (cc1_transform_1 i a) (S2048x512.size a) (S100000x512.size a)).extent (S2048x512.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1024x2048.size a < S1024x100000.size a
  hwx1_2 : ∀ i : grid1.Coords, EltTy.bits .f32 = 32 ∨ (Rect.unit (s := S1024x100000) (fun a => cc1_transform_2 i a * S1024x2048.size a) (fun a => (Pipeline.Clip.of (cc1_transform_2 i a) (S1024x2048.size a) (S1024x100000.size a)).extent (S1024x2048.size a)) fun a => Pipeline.Clip.inb (Pipeline.Clip.ok_of (hstart1_2 i a))).WholeWords (EltTy.packing .f32)
  hwxs1_2 : ∀ i : grid1.Coords, EltTy.bits .f32 = 32 ∨ (Rect.unit (s := S1024x2048) (fun _ => 0) (fun a => (Pipeline.Clip.of (cc1_transform_2 i a) (S1024x2048.size a) (S1024x100000.size a)).extent (S1024x2048.size a)) fun a => (Nat.zero_add _).trans_le (Pipeline.Clip.extent_le (Pipeline.Clip.ok_of (hstart1_2 i a)))).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v2) S1024x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_arg5) S2048x512.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v3) S1024x2048.size cc1_transform_2 reads1_2 true false 2 stage1_2 sem1_2
    hrank1 hreads1_2 hstart1_2 nbuf1_2 (Memref.isWhole_whole _) hwx1_2 hwxs1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1024x1024 : Shape := ⟨2, ![1024, 1024]⟩
abbrev S2048x1024 : Shape := ⟨2, ![2048, 1024]⟩
abbrev S2048 : Shape := ⟨1, ![2048]⟩
abbrev S512x2048 : Shape := ⟨2, ![512, 2048]⟩
abbrev S512 : Shape := ⟨1, ![512]⟩
abbrev S100000x512 : Shape := ⟨2, ![100000, 512]⟩
abbrev S1024x2048 : Shape := ⟨2, ![1024, 2048]⟩
abbrev S1x2048 : Shape := ⟨2, ![1, 2048]⟩
abbrev S_ : Shape := ⟨0, ![]⟩
abbrev S2048x512 : Shape := ⟨2, ![2048, 512]⟩
abbrev S1024x512 : Shape := ⟨2, ![1024, 512]⟩
abbrev S1x512 : Shape := ⟨2, ![1, 512]⟩
abbrev S1024 : Shape := ⟨1, ![1024]⟩
abbrev S1024x1 : Shape := ⟨2, ![1024, 1]⟩
abbrev S100000 : Shape := ⟨1, ![100000]⟩
abbrev S100000x1 : Shape := ⟨2, ![100000, 1]⟩
abbrev S512x100000 : Shape := ⟨2, ![512, 100000]⟩
abbrev S1024x100000 : Shape := ⟨2, ![1024, 100000]⟩

abbrev nBuf : Space → Nat
  | .hbm => 47
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S2048x1024, .f32⟩
  | .hbm, ⟨2, _⟩ => ⟨S2048, .f32⟩
  | .hbm, ⟨3, _⟩ => ⟨S512x2048, .f32⟩
  | .hbm, ⟨4, _⟩ => ⟨S512, .f32⟩
  | .hbm, ⟨5, _⟩ => ⟨S100000x512, .f32⟩
  | .hbm, ⟨6, _⟩ => ⟨S1024x2048, .f32⟩
  | .hbm, ⟨7, _⟩ => ⟨S1024x2048, .f32⟩
  | .hbm, ⟨8, _⟩ => ⟨S1x2048, .f32⟩
  | .hbm, ⟨9, _⟩ => ⟨S1024x2048, .f32⟩
  | .hbm, ⟨10, _⟩ => ⟨S1024x2048, .f32⟩
  | .hbm, ⟨11, _⟩ => ⟨S_, .f32⟩
  | .hbm, ⟨12, _⟩ => ⟨S1024x2048, .f32⟩
  | .hbm, ⟨13, _⟩ => ⟨S1024x2048, .f32⟩
  | .hbm, ⟨14, _⟩ => ⟨S2048x512, .f32⟩
  | .hbm, ⟨15, _⟩ => ⟨S1024x512, .f32⟩
  | .hbm, ⟨16, _⟩ => ⟨S1x512, .f32⟩
  | .hbm, ⟨17, _⟩ => ⟨S1024x512, .f32⟩
  | .hbm, ⟨18, _⟩ => ⟨S1024x512, .f32⟩
  | .hbm, ⟨19, _⟩ => ⟨S1024x512, .f32⟩
  | .hbm, ⟨20, _⟩ => ⟨S_, .f32⟩
  | .hbm, ⟨21, _⟩ => ⟨S1024, .f32⟩
  | .hbm, ⟨22, _⟩ => ⟨S1024x1, .f32⟩
  | .hbm, ⟨23, _⟩ => ⟨S1024x1, .f32⟩
  | .hbm, ⟨24, _⟩ => ⟨S_, .f32⟩
  | .hbm, ⟨25, _⟩ => ⟨S1024x1, .f32⟩
  | .hbm, ⟨26, _⟩ => ⟨S1024x1, .f32⟩
  | .hbm, ⟨27, _⟩ => ⟨S100000x512, .f32⟩
  | .hbm, ⟨28, _⟩ => ⟨S_, .f32⟩
  | .hbm, ⟨29, _⟩ => ⟨S100000, .f32⟩
  | .hbm, ⟨30, _⟩ => ⟨S100000x1, .f32⟩
  | .hbm, ⟨31, _⟩ => ⟨S100000x1, .f32⟩
  | .hbm, ⟨32, _⟩ => ⟨S_, .f32⟩
  | .hbm, ⟨33, _⟩ => ⟨S100000x1, .f32⟩
  | .hbm, ⟨34, _⟩ => ⟨S100000x1, .f32⟩
  | .hbm, ⟨35, _⟩ => ⟨S1024x512, .f32⟩
  | .hbm, ⟨36, _⟩ => ⟨S1024x512, .f32⟩
  | .hbm, ⟨37, _⟩ => ⟨S100000x512, .f32⟩
  | .hbm, ⟨38, _⟩ => ⟨S100000x512, .f32⟩
  | .hbm, ⟨39, _⟩ => ⟨S512x100000, .f32⟩
  | .hbm, ⟨40, _⟩ => ⟨S1024x100000, .f32⟩
  | .hbm, ⟨41, _⟩ => ⟨S_, .f32⟩
  | .hbm, ⟨42, _⟩ => ⟨S1024x100000, .f32⟩
  | .hbm, ⟨43, _⟩ => ⟨S1024x100000, .i1⟩
  | .hbm, ⟨44, _⟩ => ⟨S_, .f32⟩
  | .hbm, ⟨45, _⟩ => ⟨S1024x100000, .f32⟩
  | .hbm, ⟨46, _⟩ => ⟨S1024x100000, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_call2_v0 : Ref sig .tc := ⟨.hbm, 27, rfl⟩
abbrev main_call2_cst : Ref sig .tc := ⟨.hbm, 28, rfl⟩
abbrev main_call2_v1 : Ref sig .tc := ⟨.hbm, 29, rfl⟩
abbrev main_call2_v2 : Ref sig .tc := ⟨.hbm, 30, rfl⟩
abbrev main_v14 : Ref sig .tc := ⟨.hbm, 31, rfl⟩
abbrev main_cst_0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_1 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩

abbrev nD : Nat := 1
abbrev τ : Topo := Topo.v7x

variable {F : FTy → Type} [FloatOps F]

class Facts₀ : Prop where
  transposes_S2048x1024_S1024x2048_1_0 : S2048x1024.Transposes [1, 0] S1024x2048
  bcast_S2048_S1x2048_1 : S2048.BroadcastsInDim S1x2048 (![1] : Fin 1 → Fin S1x2048.rank)
  bcast_S1x2048_S1024x2048_0_1 : S1x2048.BroadcastsInDim S1024x2048 (![0, 1] : Fin 2 → Fin S1024x2048.rank)
  bcast_S_S1024x2048 : S_.BroadcastsInDim S1024x2048 (![] : Fin 0 → Fin S1024x2048.rank)
  transposes_S512x2048_S2048x512_1_0 : S512x2048.Transposes [1, 0] S2048x512
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  reducesTo_S1024x512_S1024_d1 : S1024x512.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  reducesTo_S100000x512_S100000_d1 : S100000x512.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1024x1_S1024x512_0_1 : S1024x1.BroadcastsInDim S1024x512 (![0, 1] : Fin 2 → Fin S1024x512.rank)
  bcast_S100000x1_S100000x512_0_1 : S100000x1.BroadcastsInDim S100000x512 (![0, 1] : Fin 2 → Fin S100000x512.rank)
  transposes_S100000x512_S512x100000_1_0 : S100000x512.Transposes [1, 0] S512x100000
  bcast_S_S1024x100000 : S_.BroadcastsInDim S1024x100000 (![] : Fin 0 → Fin S1024x100000.rank)
  dot_S1024x1024_S1024x2048_S1024x2048_1_0_0_1_n_n_wf : DotDims.WF S1024x1024 S1024x2048 S1024x2048 [1] [0] [0] [1] [] []
  dot_S1024x2048_S2048x512_S1024x512_1_0_0_1_n_n_wf : DotDims.WF S1024x2048 S2048x512 S1024x512 [1] [0] [0] [1] [] []
  dot_S1024x512_S512x100000_S1024x100000_1_0_0_1_n_n_wf : DotDims.WF S1024x512 S512x100000 S1024x100000 [1] [0] [0] [1] [] []

variable [Facts₀]

def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S1024x512_S512x100000_S1024x100000_1_0_0_1_n_n : DotDims S1024x512 S512x100000 S1024x100000 where
  lhsContracting := [1]
  rhsContracting := [0]
  lhsNonContracting := [0]
  rhsNonContracting := [1]
  lhsBatch := []
  rhsBatch := []
  wf := dot_S1024x512_S512x100000_S1024x100000_1_0_0_1_n_n_wf

class Facts : Prop extends Facts₀ where

variable [Facts]
-- ==== Proof.K.Body0.lean ====
/-
  The first kernel's body on one block of 512 query rows: it reads its five input buffers whole, and
  overwrites its output buffer whole with one value computed from them. So whatever the output
  buffer held, it ends holding that value of the inputs' contents, and the inputs are unchanged.
-/
import proofs.«179560_j38457137168829_2_alg».proof.Proof.Gen.Kernel.Launch
import proofs.«179560_j38457137168829_2_alg».proof.Proof.Gen.Kernel.Skeleton
import proofs.«179560_j38457137168829_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The whole-buffer rectangles the body reads and writes through -/

abbrev rX : Rect S512x1024 := Rect.unit (s := S512x1024) ![0, 0] S512x1024.size inb_S512x1024_S512x1024_0_0
abbrev rW1 : Rect S2048x1024 := Rect.unit (s := S2048x1024) ![0, 0] S2048x1024.size inb_S2048x1024_S2048x1024_0_0
abbrev rB1 : Rect S2048 := Rect.unit (s := S2048) ![0] S2048.size inb_S2048_S2048_0
abbrev rW2 : Rect S512x2048 := Rect.unit (s := S512x2048) ![0, 0] S512x2048.size inb_S512x2048_S512x2048_0_0
abbrev rB2 : Rect S512 := Rect.unit (s := S512) ![0] S512.size inb_S512_S512_0
abbrev rQ : Rect S512x512 := Rect.unit (s := S512x512) ![0, 0] S512x512.size inb_S512x512_S512x512_0_0

/-- What the output buffer holds after the body, as a function of the five input buffers' contents:
    the one stored value, read back through the one rectangle it was stored through. -/
def out0 (x0 : Vec F S512x1024 .f32) (x1 : Vec F S2048x1024 .bf16) (x2 : Vec F S2048 .f32)
    (x3 : Vec F S512x2048 .bf16) (x4 : Vec F S512 .f32) : Vec F S512x512 .f32 :=
  View.canon [⟨rQ, k0_pay1 (View.ld x0 rX) (View.ld x1 rW1) (View.ld x2 rB1) (View.ld x3 rW2) (View.ld x4 rB2)⟩]

/-- The one store covers the output buffer. -/
theorem cover0 (p0 : Vec F S512x512 .f32) (y : S512x512.Idx) :
    ∃ pc ∈ ([⟨rQ, p0⟩] : List (View.Piece (Elt F) S512x512 .f32)), y ∈ pc.1.set :=
  View.cover_of_tiled [⟨rQ, p0⟩] S512x512.size (by rfl) y

set_option maxHeartbeats 1000000 in
/-- The body's triple on whole buffers: the inputs at contents `x0 … x4`, the output at anything; it
    ends with the inputs as they were and the output at `out0` of them. -/
theorem sound_kernel0 (c : Dev nD) (E : Set ℕ) (i : grid0.Coords)
    (arg1 : Memref sig .tc .vmem S512x1024 .f32) (harg1 : arg1.IsWhole)
    (arg2 : Memref sig .tc .vmem S2048x1024 .bf16) (harg2 : arg2.IsWhole)
    (arg3 : Memref sig .tc .vmem S2048 .f32) (harg3 : arg3.IsWhole)
    (arg4 : Memref sig .tc .vmem S512x2048 .bf16) (harg4 : arg4.IsWhole)
    (arg5 : Memref sig .tc .vmem S512 .f32) (harg5 : arg5.IsWhole)
    (arg6 : Memref sig .tc .vmem S512x512 .f32) (harg6 : arg6.IsWhole)
    (x0 : Vec F S512x1024 .f32) (x1 : Vec F S2048x1024 .bf16) (x2 : Vec F S2048 .f32)
    (x3 : Vec F S512x2048 .bf16) (x4 : Vec F S512 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out0 x0 x1 x2 x3 x4)) -∗ K ⟨⟩))
      ⊢ wp frame (wpE (defs₀ (F := F)) Variants.none c none) E
          (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0 _)

end Cert.Kernel.Hand

end
-- ==== Proof.K.Body1.lean ====
/-
  The second kernel's body on one block of 2048 table rows against all 1024 query rows: it reads the
  query buffer whole and the table buffer as two halves of 1024 rows, and stores one value per half
  into the two column halves of its output buffer, which together cover it. So whatever the output
  buffer held, it ends holding those two values side by side, and the inputs are unchanged.
-/
import proofs.«179560_j38457137168829_2_alg».proof.Proof.Gen.Kernel.Launch
import proofs.«179560_j38457137168829_2_alg».proof.Proof.Gen.Kernel.Skeleton
import proofs.«179560_j38457137168829_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The rectangles the body reads and writes through -/

abbrev rQry : Rect S1024x512 := Rect.unit (s := S1024x512) ![0, 0] S1024x512.size inb_S1024x512_S1024x512_0_0
abbrev rTabLo : Rect S2048x512 := Rect.unit (s := S2048x512) ![0, 0] S1024x512.size inb_S2048x512_S1024x512_0_0
abbrev rTabHi : Rect S2048x512 := Rect.unit (s := S2048x512) ![1024, 0] S1024x512.size inb_S2048x512_S1024x512_1024_0
abbrev rSimLo : Rect S1024x2048 := Rect.unit (s := S1024x2048) ![0, 0] S1024x1024.size inb_S1024x2048_S1024x1024_0_0
abbrev rSimHi : Rect S1024x2048 := Rect.unit (s := S1024x2048) ![0, 1024] S1024x1024.size inb_S1024x2048_S1024x1024_0_1024

/-- What the output buffer holds after the body, as a function of the two input buffers' contents:
    the two stored halves (the later store first), read back through their rectangles. -/
def out1 (x0 : Vec F S1024x512 .f32) (x1 : Vec F S2048x512 .f32) : Vec F S1024x2048 .f32 :=
  View.canon [⟨rSimHi, k1_pay3 (View.ld x0 rQry) (View.ld x1 rTabHi)⟩,
    ⟨rSimLo, k1_pay2 (View.ld x0 rQry) (View.ld x1 rTabLo)⟩]

/-- The two column halves cover the output buffer. -/
theorem cover1 (p0 p1 : Vec F S1024x1024 .f32) (y : S1024x2048.Idx) :
    ∃ pc ∈ ([⟨rSimHi, p0⟩, ⟨rSimLo, p1⟩] : List (View.Piece (Elt F) S1024x2048 .f32)), y ∈ pc.1.set :=
  View.cover_of_tiled [⟨rSimHi, p0⟩, ⟨rSimLo, p1⟩] S1024x1024.size (by rfl) y

set_option maxHeartbeats 1000000 in
/-- The body's triple on whole buffers: the inputs at contents `x0`, `x1`, the output at anything; it
    ends with the inputs as they were and the output at `out1` of them. -/
theorem sound_kernel1 (c : Dev nD) (E : Set ℕ) (i : grid1.Coords)
    (arg1 : Memref sig .tc .vmem S1024x512 .f32) (harg1 : arg1.IsWhole)
    (arg2 : Memref sig .tc .vmem S2048x512 .f32) (harg2 : arg2.IsWhole)
    (arg3 : Memref sig .tc .vmem S1024x2048 .f32) (harg3 : arg3.IsWhole)
    (x0 : Vec F S1024x512 .f32) (x1 : Vec F S2048x512 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1 x0 x1)) -∗ K ⟨⟩))
      ⊢ wp frame (wpE (defs₀ (F := F)) Variants.none c none) E
          (cc1__cosine_kernel i arg1 harg1 arg2 harg2 arg3 harg3) K := by
  simp only [cc1__cosine_kernel_eq_skeleton]; unfold cc1__cosine_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _ _)

end Cert.Kernel.Hand

end
-- ==== Proof.K.Data.lean ====
/-
  The proof data of the two kernel regions, each at the buffer contents `V` its region is entered with.

  Region 0 (two blocks of 512 query rows): every input buffer holds its array's block at the point,
  fetched there or kept from the point before; the output buffer ends at `out0` of the input blocks.

  Region 1 (49 blocks of 2048 table rows, the last one overhanging the table by 352 rows): the query
  buffer holds the whole query array; the table buffer holds the block's rows inside the table and, past
  the table's end, words nothing names; the output buffer ends at `out1` of the two, of which only the
  columns inside the result array are written back. The data name the table buffer filled out with the
  zero word; that the columns written back do not depend on the filler is a hypothesis here (`hloc`),
  discharged where the arithmetic is read (it is false of an uninterpreted matrix product, which is
  why the frame of the word-level program forgets this region's buffers instead).
-/
import proofs.«179560_j38457137168829_2_alg».proof.Proof.K.Body0
import proofs.«179560_j38457137168829_2_alg».proof.Proof.K.Body1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of pipeline 0: the arrays as found; after the body each input buffer at its block and
    the output buffer at `out0` of the input blocks; the scoped rest and the generator register pass
    through; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0 (iblk0 V c 0 t) (iblk0 V c 1 t) (iblk0 V c 2 t) (iblk0 V c 3 t) (iblk0 V c 4 t) := by dsimp only [dat0]

/-- An input buffer holds its block at every point: fetched there, or kept from the point before, whose
    block index was the same. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input buffers hold their blocks, so the body's triple applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 0, at every point. -/
theorem body_obligation0 (c : Dev nD) : BodyObligation (dat0 (F := F) V c) (defs₀ (F := F)) Variants.none () Set.univ := fun t => by
  rw [bigSep_W0, bigSep_W0]
  exact sound_body0 V c t

/-! # Region 1 -/

/-- Window `w`'s block at point `t`, read off its array as the region finds it: for the two windows
    whose last block overhangs its array, the block's part inside the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The table buffer as the data name it: the block's rows inside the table, the zero word past its end. -/
def tab1 (c : Dev nD) (t : Fin cfg1.N) : Vec F S2048x512 .f32 :=
  (cfg1.win 1).fill (cfg1.grid.coords t) (fun _ => Scalar.ofBits .f32 0#32) (iblk1 V c 1 t)

/-- The proof data of pipeline 1. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => tab1 V c t
    | ⟨2, _⟩ => out1 (iblk1 V c 0 t) (tab1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = tab1 V c t := by dsimp only [dat1]
theorem after1_2 (c : Dev nD) (t : Fin cfg1.N) : (dat1 V c).after 2 t = out1 (iblk1 V c 0 t) (tab1 V c t) := by dsimp only [dat1]

/-- The query buffer holds the whole query array at every point (fetched once, then kept). -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The table buffer, fetched at every point, holds the block's rows inside the table and `d` elsewhere. -/
theorem before1_1 (c : Dev nD) (t : Fin cfg1.N) (d) :
    (dat1 V c).before 1 t d = (cfg1.win 1).fill (cfg1.grid.coords t) d (iblk1 V c 1 t) := by
  rw [(dat1 V c).before_fetched 1 t (fetch1_1 t) d]
  unfold Dat.fetched Dat.blockOf iblk1; rw [A_eq1]

/-- The output buffer, written back at every point, comes to the body at contents nothing names. -/
theorem before1_2 (c : Dev nD) (t : Fin cfg1.N) (d) : (dat1 V c).before 2 t d = d :=
  (dat1 V c).before_out_reset 2 rfl t
    (by
      by_cases h0 : t.val = 0
      · exact .inl h0
      · exact .inr ⟨h0, flush1_2 _⟩) d

/-- THE LOOSE BODY OBLIGATION of region 1, given that the columns of the output written back do not
    depend on what the table buffer holds past the table's end (`hloc`). The query buffer is handed
    back as found; the table buffer as found, which on the rows inside the table is the named one;
    the output buffer at `out1` of what the body read, which on the columns written back is the named one. -/
theorem body_obligation1_of (c : Dev nD)
    (hloc : ∀ (t : Fin cfg1.N) (d : Vec F S2048x512 .f32),
      (cfg1.win 2).cut (cfg1.grid.coords t) (out1 (iblk1 V c 0 t) ((cfg1.win 1).fill (cfg1.grid.coords t) d (iblk1 V c 1 t)))
        = (cfg1.win 2).cut (cfg1.grid.coords t) (out1 (iblk1 V c 0 t) (tab1 V c t))) :
    BodyObligationLoose (dat1 (F := F) V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  show _ ⊢ wp frame (wpE (defs₀ (F := F)) Variants.none c none) Set.univ (bodyAt1 t) _
  unfold bodyAt1
  simp only [before1_0, before1_1, before1_2]
  iintro ⟨HΦ, Ho, ⟨%d0, H0⟩, ⟨%d1, H1⟩, ⟨%d2, H2⟩⟩
  iapply (sound_kernel1 (F := F) c Set.univ (grid1.coords t) _ _ _ _ _ _ (iblk1 V c 0 t)
    ((cfg1.win 1).fill (cfg1.grid.coords t) d1 (iblk1 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · rw [after1_0]; iexact H0
  isplitl [H1]
  · iexists d1
    rw [after1_1]; unfold tab1; rw [Window.cut_fill]; iexact H1
  · iexists (out1 (iblk1 V c 0 t) ((cfg1.win 1).fill (cfg1.grid.coords t) d1 (iblk1 V c 1 t)))
    rw [after1_2, (cfg1.win 2).fill_congr_cut (cfg1.grid.coords t) (hloc t d1)]; iexact H2

/-- THE BODY OBLIGATION of region 1 WITH ITS BUFFERS FORGOTTEN: from any contents of the three buffers
    the body runs and hands them back at some contents. (All a claim that does not read the region's
    result needs of it.) -/
theorem body_obligation1_forget (c : Dev nD) :
    BodyObligationLoose (dat1 (F := F) V c) (defs₀ (F := F)) Variants.none () Set.univ (fun _ => true) := fun t => by
  rw [bigSep_W1]
  simp only
  rw [show (dat1 V c).Φ t.succ = (dat1 V c).Φ t.castSucc from rfl,
    show (dat1 V c).owesAt () t.succ = (dat1 V c).owesAt () t.castSucc from rfl]
  show _ ⊢ wp frame (wpE (defs₀ (F := F)) Variants.none c none) Set.univ (bodyAt1 t) _
  unfold bodyAt1
  iintro ⟨HΦ, Ho, ⟨%X0, H0⟩, ⟨%X1, H1⟩, ⟨%X2, H2⟩⟩
  iapply (sound_kernel1 (F := F) c Set.univ (grid1.coords t) _ _ _ _ _ _ X0 X1 _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists _; iexact H0
  isplitl [H1]; · iexists _; iexact H1
  iexists _; iexact H2

end Cert.Kernel.Hand

end
-- ==== Proof.K.Run.lean ====
/-
  The run of the whole program, segment by segment: the two host conversions, then the two kernel
  regions. Between segments the core holds every unscoped buffer at a named valuation: the launch
  memory; that with the two converted weight arrays written; that with region 0's arrays at what its
  write-backs leave; that with region 1's arrays likewise. Every execution terminates, and at the end
  every unscoped buffer holds the last valuation — in which each argument array is read back to its
  launch contents and the result array is what region 1's write-backs leave.
-/
import proofs.«179560_j38457137168829_2_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev B0 : Dev nD → Valuation τ sig (Elt F) := fun c b => m (c, b)
/-- After the two host conversions (region 0's entry). -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b
/-- At region 0's exit: its arrays at what the pipeline leaves, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)
/-- At region 1's exit. -/
def B3 (c : Dev nD) : Valuation τ sig (Elt F) :=
  Pipeline.withArrays spec1 c (B2 m c) fun w => (dat1 (E2 m) c).arrAt w cfg1.N
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (dat1 (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)

/-! ### No segment writes an argument -/

/-- The host conversions write only the two converted weight arrays. -/
theorem B1_of (c : Dev nD) (b : Ref sig .tc) (h0 : b ≠ main_v0) (h1 : b ≠ main_v1) :
    B1 m c (Proc.devRef .tc b) = m ((c : Thread nD τ).loc b) :=
  (StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1⟩))).trans rfl

theorem B3_main_arg0 (c : Dev nD) : B3 m c (Proc.devRef .tc main_arg0) = m ((c : Thread nD τ).loc main_arg0) :=
  (B3_of_ne m c main_arg0 (by decide)).trans <| (B2_arr m c 0).trans <|
    (((dat0 (E1 m) c).arrAt_in 0 rfl _).trans (A_eq0 (E1 m) c 0)).trans (B1_of m c main_arg0 (by decide) (by decide))
theorem B3_main_arg1 (c : Dev nD) : B3 m c (Proc.devRef .tc main_arg1) = m ((c : Thread nD τ).loc main_arg1) :=
  (B3_of_ne m c main_arg1 (by decide)).trans <| (B2_of_ne m c main_arg1 (by decide)).trans (B1_of m c main_arg1 (by decide) (by decide))
theorem B3_main_arg2 (c : Dev nD) : B3 m c (Proc.devRef .tc main_arg2) = m ((c : Thread nD τ).loc main_arg2) :=
  (B3_of_ne m c main_arg2 (by decide)).trans <| (B2_arr m c 2).trans <|
    (((dat0 (E1 m) c).arrAt_in 2 rfl _).trans (A_eq0 (E1 m) c 2)).trans (B1_of m c main_arg2 (by decide) (by decide))
theorem B3_main_arg3 (c : Dev nD) : B3 m c (Proc.devRef .tc main_arg3) = m ((c : Thread nD τ).loc main_arg3) :=
  (B3_of_ne m c main_arg3 (by decide)).trans <| (B2_of_ne m c main_arg3 (by decide)).trans (B1_of m c main_arg3 (by decide) (by decide))
theorem B3_main_arg4 (c : Dev nD) : B3 m c (Proc.devRef .tc main_arg4) = m ((c : Thread nD τ).loc main_arg4) :=
  (B3_of_ne m c main_arg4 (by decide)).trans <| (B2_arr m c 4).trans <|
    (((dat0 (E1 m) c).arrAt_in 4 rfl _).trans (A_eq0 (E1 m) c 4)).trans (B1_of m c main_arg4 (by decide) (by decide))
theorem B3_main_arg5 (c : Dev nD) : B3 m c (Proc.devRef .tc main_arg5) = m ((c : Thread nD τ).loc main_arg5) :=
  (B3_arr m c 1).trans <| (((dat1 (E2 m) c).arrAt_in 1 rfl _).trans (A_eq1 (E2 m) c 1)).trans <|
    (B2_of_ne m c main_arg5 (by decide)).trans (B1_of m c main_arg5 (by decide) (by decide))
/-- The result array ends at what region 1's write-backs leave. -/
theorem B3_main_v3 (c : Dev nD) : B3 m c (Proc.devRef .tc main_v3) = (dat1 (E2 m) c).arrAt 2 cfg1.N := B3_arr m c 2

/-! ## The proof data family and the thread state -/

abbrev admH : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admH p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every segment: the generator register at some state and the
    core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem ops0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B3 m c) ∗ ∃ r, prngReg c r)

/-! ## The regions as segments -/

set_option backward.isDefEq.respectTransparency.types false in
/-- Region 0 over the thread state: entered from every unscoped buffer at `B1`, left at `B2`. -/
def reg0 : Pipeline.RegionSeg (pcfgs (F := F)) admH (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B2`, left at `B3`; its body
    obligation is a parameter (it holds where the arithmetic can be read). -/
def reg1 (hb1 : ∀ c, BodyObligationLoose (dat1 (F := F) (E2 m) c) (defs₀ (F := F)) Variants.none () Set.univ) :
    Pipeline.RegionSeg (pcfgs (F := F)) admH (pdats m) () defs₀ 𝒱₀ L lv 1 where
  win := launch1.win.to₀
  block_pos := launch1.block_pos
  stage_whole := launch1.stage_whole
  K := PEmpty
  osem k := k.elim
  ho := Pipeline.OwnSemFacts.none _
  hbody c := hb1 c
  hwaits := Pipeline.hwaits_of_owed_zero _ _ _ _ L lv 1 fun _ _ => rfl
  pre c := iprop(StableHlo.held (c : Thread nD τ) (Pipeline.ucRefs τ sig) (B2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs (hb1 : ∀ c, BodyObligationLoose (dat1 (F := F) (E2 m) c) (defs₀ (F := F)) Variants.none () Set.univ) :
    List (Pipeline.Seg (pcfgs (F := F)) admH (pdats m) () defs₀ 𝒱₀ L lv) :=
  [ .host (hseg hostOps0 hostOps0_sub ops0_fresh (B0 m)),
    .region (reg0 m),
    .region (reg1 m hb1) ]

theorem main_run (hb1 : ∀ c, BodyObligationLoose (dat1 (F := F) (E2 m) c) (defs₀ (F := F)) Variants.none () Set.univ) (c : Dev nD) :
    main (F := F) c = Pipeline.Seg.run (segs m hb1) := (main_chain c).trans (by chain_rfl)

set_option backward.isDefEq.respectTransparency.types false in
/-- THE RUN: from any memory with zero counters every execution of @main terminates, and every final
    state has every unscoped buffer at the last valuation `B3`. -/
theorem run_all (hb1 : ∀ c, BodyObligationLoose (dat1 (F := F) (E2 m) c) (defs₀ (F := F)) Variants.none () Set.univ) :
    θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) admH (pdats m) () cellOf_inj emb₁ defs₀ 𝒱₀ L lv m ρ main (segs m hb1)
    (fun c Q => by rw [main_run m hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

end Cert.Kernel.Hand

end
-- ==== Proof.K.RunR.lean ====
/-
  The run of the word-level program for its frame: the same segments as the exact run, with the second
  region's three staging buffers FORGOTTEN — its body runs from any contents and hands back some
  contents; nothing is said of what it computes (at word level the matrix product of a block whose
  tail rows hold unnamed words is not a function of the named rows). The first region stays exact: the
  second is entered with the array the first leaves. At the second region's exit its two input arrays
  hold what they held (an input array is never written back) and the result array holds something; so
  at the end every argument array is read back to its launch contents.
-/
import proofs.«179560_j38457137168829_2_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data read relationally: region 0 exact, region 1 with every window forgotten. -/
def rdats : (p : Fin 2) → (c : Dev nD) → Pipeline.RDat τ (Elt F) Unit ℕ (UR sig nD τ) ℕ (Pipeline.pin (pcfgs (F := F)) admH p) c
  | ⟨0, _⟩ => fun c => (dat0 (E1 m) c).toR
  | ⟨1, _⟩ => fun c => (dat1 (E2 m) c).toRForget (fun _ => true)

/-- Region 1's arrays at its exit, the result array at contents `F2` nothing names. -/
def arrs1 (c : Dev nD) (F2 : Buf (Elt F) ((cfg1.win 2).arr.view.loc (c : Thread nD τ))) :
    (w : Fin cfg1.W) → Buf (Elt F) ((cfg1.win w).arr.view.loc (c : Thread nD τ)) :=
  Function.update (fun w => (dat1 (E2 m) c).A w) 2 F2

/-- The last valuation: region 1's arrays at `arrs1`, every other buffer as region 1 was entered. -/
def BR (c : Dev nD) (F2 : Buf (Elt F) ((cfg1.win 2).arr.view.loc (c : Thread nD τ))) : Valuation τ sig (Elt F) :=
  Pipeline.withArrays spec1 c (B2 m c) (arrs1 m c F2)
theorem BR_arr (c : Dev nD) (F2) (w : Fin cfg1.W) :
    BR m c F2 (Proc.devRef .tc (Pipeline.arrRef spec1 w)) = arrs1 m c F2 w := by
  unfold BR; exact Pipeline.withArrays_arr spec1 launch1.win.arr_inj c _ _ w
theorem BR_of_ne (c : Dev nD) (F2) (b : Ref sig .tc) (hb : ∀ w, Pipeline.arrRef spec1 w ≠ b) :
    BR m c F2 (Proc.devRef .tc b) = B2 m c (Proc.devRef .tc b) := by
  unfold BR; exact Pipeline.withArrays_of_ne spec1 c _ _ b hb

theorem BR_main_arg0 (c : Dev nD) (F2) : BR m c F2 (Proc.devRef .tc main_arg0) = m ((c : Thread nD τ).loc main_arg0) :=
  (BR_of_ne m c F2 main_arg0 (by decide)).trans <| (B2_arr m c 0).trans <|
    (((dat0 (E1 m) c).arrAt_in 0 rfl _).trans (A_eq0 (E1 m) c 0)).trans (B1_of m c main_arg0 (by decide) (by decide))
theorem BR_main_arg1 (c : Dev nD) (F2) : BR m c F2 (Proc.devRef .tc main_arg1) = m ((c : Thread nD τ).loc main_arg1) :=
  (BR_of_ne m c F2 main_arg1 (by decide)).trans <| (B2_of_ne m c main_arg1 (by decide)).trans (B1_of m c main_arg1 (by decide) (by decide))
theorem BR_main_arg2 (c : Dev nD) (F2) : BR m c F2 (Proc.devRef .tc main_arg2) = m ((c : Thread nD τ).loc main_arg2) :=
  (BR_of_ne m c F2 main_arg2 (by decide)).trans <| (B2_arr m c 2).trans <|
    (((dat0 (E1 m) c).arrAt_in 2 rfl _).trans (A_eq0 (E1 m) c 2)).trans (B1_of m c main_arg2 (by decide) (by decide))
theorem BR_main_arg3 (c : Dev nD) (F2) : BR m c F2 (Proc.devRef .tc main_arg3) = m ((c : Thread nD τ).loc main_arg3) :=
  (BR_of_ne m c F2 main_arg3 (by decide)).trans <| (B2_of_ne m c main_arg3 (by decide)).trans (B1_of m c main_arg3 (by decide) (by decide))
theorem BR_main_arg4 (c : Dev nD) (F2) : BR m c F2 (Proc.devRef .tc main_arg4) = m ((c : Thread nD τ).loc main_arg4) :=
  (BR_of_ne m c F2 main_arg4 (by decide)).trans <| (B2_arr m c 4).trans <|
    (((dat0 (E1 m) c).arrAt_in 4 rfl _).trans (A_eq0 (E1 m) c 4)).trans (B1_of m c main_arg4 (by decide) (by decide))
theorem BR_main_arg5 (c : Dev nD) (F2) : BR m c F2 (Proc.devRef .tc main_arg5) = m ((c : Thread nD τ).loc main_arg5) :=
  (BR_arr m c F2 1).trans <| (show arrs1 m c F2 1 = (dat1 (E2 m) c).A 1 from Function.update_of_ne (by decide) _ _).trans <|
    (A_eq1 (E2 m) c 1).trans <| (B2_of_ne m c main_arg5 (by decide)).trans (B1_of m c main_arg5 (by decide) (by decide))

/-- The last thread state: every unscoped buffer at the last valuation for SOME contents of the result
    array, the generator register at some state. -/
abbrev TR (c : Dev nD) : sProp 𝕄 :=
  iprop((∃ F2, StableHlo.held (c : Thread nD τ) (Pipeline.ucRefs τ sig) (BR m c F2)) ∗ ∃ r, prngReg c r)

set_option backward.isDefEq.respectTransparency.types false in
/-- Region 0, exact, read relationally. -/
def rreg0 : Pipeline.RDat.RegionSeg (pcfgs (F := F)) admH (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).toR
  hwaits := Pipeline.RDat.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.RDat.arrays_of_unscopedBufs (p := 0) (pcfgs (F := F)) admH (rdats m) launch0.win launch0.arr_whole c
      ((dat0 (E1 m) c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    rw [show (rdats m 0 c).arraysAt (Pipeline.pin (pcfgs (F := F)) admH 0).N = ((pdats m 0 c).arrays ((pdats m 0 c).arrAt · cfg0.N) : sProp 𝕄)
      from (pdats m 0 c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Region 1 with its buffers forgotten. -/
def rreg1 : Pipeline.RDat.RegionSeg (pcfgs (F := F)) admH (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1_forget (E2 m) c).toRForget
  hwaits := Pipeline.RDat.hwaits_of_owed_zero _ _ _ _ L lv 1 fun _ _ => rfl
  pre c := iprop(StableHlo.held (c : Thread nD τ) (Pipeline.ucRefs τ sig) (B2 m c) ∗ R c)
  post c := iprop(TR m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.RDat.arrays_of_unscopedBufs (p := 1) (pcfgs (F := F)) admH (rdats m) launch1.win launch1.arr_whole c
      ((dat1 (E2 m) c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    unfold Pipeline.RDat.arraysAt
    rw [bigSep_W1]
    iintro ⟨⟨⟨%F0, %h0, H0⟩, ⟨%F1, %h1, H1⟩, ⟨%F2, %h2, H2⟩⟩, HO, HY, Hrest⟩
    have e0 : F0 = (dat1 (E2 m) c).A 0 := by
      rw [Pipeline.RDat.ArrAt_in (rdats m 1 c) 0 rfl] at h0; exact h0
    have e1 : F1 = (dat1 (E2 m) c).A 1 := by
      rw [Pipeline.RDat.ArrAt_in (rdats m 1 c) 1 rfl] at h1; exact h1
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (E2 m c) (fun b => BR m c F2 b) (arrs1 m c F2) (fun w => (BR_arr m c F2 w).symm)
      (fun b hb => BR_of_ne m c F2 b fun w e => hb (Finset.mem_image.mpr ⟨w, Finset.mem_univ _, e⟩))
    rw [Pipeline.unscopedBufs_held] at hjoin
    imodintro
    isplitl [H0 H1 H2 Hrest HY]
    · isplitl [H0 H1 H2 Hrest]
      · iexists F2
        iapply hjoin
        isplitl [H0 H1 H2]
        · unfold Pipeline.Dat.arrays
          rw [bigSep_W1]
          rw [show arrs1 m c F2 0 = (dat1 (E2 m) c).A 0 from Function.update_of_ne (by decide) _ _,
            show arrs1 m c F2 1 = (dat1 (E2 m) c).A 1 from Function.update_of_ne (by decide) _ _,
            show arrs1 m c F2 2 = F2 from Function.update_self _ _ _, ← e0, ← e1]
          isplitl [H0]; · iexact H0
          isplitl [H1]; · iexact H1
          iexact H2
        · iexact Hrest
      · iexact HY
    unfold Pipeline.RDat.owesAt Pipeline.owesWithin
    icases HO with ⟨%W, -, HO⟩; iexists W; iexact HO

abbrev rsegs : List (Pipeline.RDat.Seg (pcfgs (F := F)) admH (rdats m) () defs₀ 𝒱₀ L lv) :=
  [ .host (hseg hostOps0 hostOps0_sub ops0_fresh (B0 m)),
    .region (rreg0 m),
    .region (rreg1 m) ]

theorem main_rrun (c : Dev nD) : main (F := F) c = Pipeline.RDat.Seg.run (rsegs m) := (main_chain c).trans (by chain_rfl)

set_option backward.isDefEq.respectTransparency.types false in
/-- THE FRAME, at any float instance: from any memory with zero counters every execution of @main
    terminates, and every final state holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.RDat.θ_run_regions_kit (pcfgs (F := F)) admH (rdats m) () cellOf_inj emb₁ defs₀ 𝒱₀ L lv m ρ main (rsegs m)
    (fun c Q => by rw [main_rrun m c])
    (by simp only [rsegs, Pipeline.RDat.Seg.pipes, List.filterMap, Pipeline.RDat.Seg.pipe?]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := TR m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s =>
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
    (hfin := fun c s' => by
      iintro ⟨⟨⟨%F2, Hh⟩, -⟩, HSI⟩
      unfold StableHlo.held
      ihave Hr := (pointsTo_read_all (Pipeline.ucRefs τ sig) (fun b => (((c : Thread nD τ)).1, b)) (BR m c F2) s') $$ [Hh HSI]
      · isplitl [Hh] <;> iassumption
      icases Hr with ⟨%h, HSI⟩
      imodintro
      isplitr
      · ipureintro
        exact ⟨(h _ (mem_uc main_arg0 (by decide))).trans (BR_main_arg0 m c F2),
          (h _ (mem_uc main_arg1 (by decide))).trans (BR_main_arg1 m c F2),
          (h _ (mem_uc main_arg2 (by decide))).trans (BR_main_arg2 m c F2),
          (h _ (mem_uc main_arg3 (by decide))).trans (BR_main_arg3 m c F2),
          (h _ (mem_uc main_arg4 (by decide))).trans (BR_main_arg4 m c F2),
          (h _ (mem_uc main_arg5 (by decide))).trans (BR_main_arg5 m c F2)⟩
      · iexact HSI)
    (hQ := fun _ h => h)

end Cert.Kernel.Hand

end
-- ==== Proof.KI.Body0.lean ====
/-
  The first kernel's body on one block of 512 query rows: it reads its five input buffers whole, and
  overwrites its output buffer whole with one value computed from them. So whatever the output
  buffer held, it ends holding that value of the inputs' contents, and the inputs are unchanged.
-/
import proofs.«179560_j38457137168829_2_alg».proof.Proof.Gen.KernelIdeal.Launch
import proofs.«179560_j38457137168829_2_alg».proof.Proof.Gen.KernelIdeal.Skeleton
import proofs.«179560_j38457137168829_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The whole-buffer rectangles the body reads and writes through -/

abbrev rX : Rect S512x1024 := Rect.unit (s := S512x1024) ![0, 0] S512x1024.size inb_S512x1024_S512x1024_0_0
abbrev rW1 : Rect S2048x1024 := Rect.unit (s := S2048x1024) ![0, 0] S2048x1024.size inb_S2048x1024_S2048x1024_0_0
abbrev rB1 : Rect S2048 := Rect.unit (s := S2048) ![0] S2048.size inb_S2048_S2048_0
abbrev rW2 : Rect S512x2048 := Rect.unit (s := S512x2048) ![0, 0] S512x2048.size inb_S512x2048_S512x2048_0_0
abbrev rB2 : Rect S512 := Rect.unit (s := S512) ![0] S512.size inb_S512_S512_0
abbrev rQ : Rect S512x512 := Rect.unit (s := S512x512) ![0, 0] S512x512.size inb_S512x512_S512x512_0_0

/-- What the output buffer holds after the body, as a function of the five input buffers' contents:
    the one stored value, read back through the one rectangle it was stored through. -/
def out0 (x0 : Vec F S512x1024 .f32) (x1 : Vec F S2048x1024 .bf16) (x2 : Vec F S2048 .f32)
    (x3 : Vec F S512x2048 .bf16) (x4 : Vec F S512 .f32) : Vec F S512x512 .f32 :=
  View.canon [⟨rQ, k0_pay1 (View.ld x0 rX) (View.ld x1 rW1) (View.ld x2 rB1) (View.ld x3 rW2) (View.ld x4 rB2)⟩]

/-- The one store covers the output buffer. -/
theorem cover0 (p0 : Vec F S512x512 .f32) (y : S512x512.Idx) :
    ∃ pc ∈ ([⟨rQ, p0⟩] : List (View.Piece (Elt F) S512x512 .f32)), y ∈ pc.1.set :=
  View.cover_of_tiled [⟨rQ, p0⟩] S512x512.size (by rfl) y

set_option maxHeartbeats 1000000 in
/-- The body's triple on whole buffers: the inputs at contents `x0 … x4`, the output at anything; it
    ends with the inputs as they were and the output at `out0` of them. -/
theorem sound_kernel0 (c : Dev nD) (E : Set ℕ) (i : grid0.Coords)
    (arg1 : Memref sig .tc .vmem S512x1024 .f32) (harg1 : arg1.IsWhole)
    (arg2 : Memref sig .tc .vmem S2048x1024 .bf16) (harg2 : arg2.IsWhole)
    (arg3 : Memref sig .tc .vmem S2048 .f32) (harg3 : arg3.IsWhole)
    (arg4 : Memref sig .tc .vmem S512x2048 .bf16) (harg4 : arg4.IsWhole)
    (arg5 : Memref sig .tc .vmem S512 .f32) (harg5 : arg5.IsWhole)
    (arg6 : Memref sig .tc .vmem S512x512 .f32) (harg6 : arg6.IsWhole)
    (x0 : Vec F S512x1024 .f32) (x1 : Vec F S2048x1024 .bf16) (x2 : Vec F S2048 .f32)
    (x3 : Vec F S512x2048 .bf16) (x4 : Vec F S512 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out0 x0 x1 x2 x3 x4)) -∗ K ⟨⟩))
      ⊢ wp frame (wpE (defs₀ (F := F)) Variants.none c none) E
          (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0 _)

end Cert.KernelIdeal.Hand

end
-- ==== Proof.KI.Body1.lean ====
/-
  The second kernel's body on one block of 2048 table rows against all 1024 query rows: it reads the
  query buffer whole and the table buffer as two halves of 1024 rows, and stores one value per half
  into the two column halves of its output buffer, which together cover it. So whatever the output
  buffer held, it ends holding those two values side by side, and the inputs are unchanged.
-/
import proofs.«179560_j38457137168829_2_alg».proof.Proof.Gen.KernelIdeal.Launch
import proofs.«179560_j38457137168829_2_alg».proof.Proof.Gen.KernelIdeal.Skeleton
import proofs.«179560_j38457137168829_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The rectangles the body reads and writes through -/

abbrev rQry : Rect S1024x512 := Rect.unit (s := S1024x512) ![0, 0] S1024x512.size inb_S1024x512_S1024x512_0_0
abbrev rTabLo : Rect S2048x512 := Rect.unit (s := S2048x512) ![0, 0] S1024x512.size inb_S2048x512_S1024x512_0_0
abbrev rTabHi : Rect S2048x512 := Rect.unit (s := S2048x512) ![1024, 0] S1024x512.size inb_S2048x512_S1024x512_1024_0
abbrev rSimLo : Rect S1024x2048 := Rect.unit (s := S1024x2048) ![0, 0] S1024x1024.size inb_S1024x2048_S1024x1024_0_0
abbrev rSimHi : Rect S1024x2048 := Rect.unit (s := S1024x2048) ![0, 1024] S1024x1024.size inb_S1024x2048_S1024x1024_0_1024

/-- What the output buffer holds after the body, as a function of the two input buffers' contents:
    the two stored halves (the later store first), read back through their rectangles. -/
def out1 (x0 : Vec F S1024x512 .f32) (x1 : Vec F S2048x512 .f32) : Vec F S1024x2048 .f32 :=
  View.canon [⟨rSimHi, k1_pay3 (View.ld x0 rQry) (View.ld x1 rTabHi)⟩,
    ⟨rSimLo, k1_pay2 (View.ld x0 rQry) (View.ld x1 rTabLo)⟩]

/-- The two column halves cover the output buffer. -/
theorem cover1 (p0 p1 : Vec F S1024x1024 .f32) (y : S1024x2048.Idx) :
    ∃ pc ∈ ([⟨rSimHi, p0⟩, ⟨rSimLo, p1⟩] : List (View.Piece (Elt F) S1024x2048 .f32)), y ∈ pc.1.set :=
  View.cover_of_tiled [⟨rSimHi, p0⟩, ⟨rSimLo, p1⟩] S1024x1024.size (by rfl) y

set_option maxHeartbeats 1000000 in
/-- The body's triple on whole buffers: the inputs at contents `x0`, `x1`, the output at anything; it
    ends with the inputs as they were and the output at `out1` of them. -/
theorem sound_kernel1 (c : Dev nD) (E : Set ℕ) (i : grid1.Coords)
    (arg1 : Memref sig .tc .vmem S1024x512 .f32) (harg1 : arg1.IsWhole)
    (arg2 : Memref sig .tc .vmem S2048x512 .f32) (harg2 : arg2.IsWhole)
    (arg3 : Memref sig .tc .vmem S1024x2048 .f32) (harg3 : arg3.IsWhole)
    (x0 : Vec F S1024x512 .f32) (x1 : Vec F S2048x512 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1 x0 x1)) -∗ K ⟨⟩))
      ⊢ wp frame (wpE (defs₀ (F := F)) Variants.none c none) E
          (cc1__cosine_kernel i arg1 harg1 arg2 harg2 arg3 harg3) K := by
  simp only [cc1__cosine_kernel_eq_skeleton]; unfold cc1__cosine_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _ _)

end Cert.KernelIdeal.Hand

end
-- ==== Proof.KI.Data.lean ====
/-
  The proof data of the two kernel regions, each at the buffer contents `V` its region is entered with.

  Region 0 (two blocks of 512 query rows): every input buffer holds its array's block at the point,
  fetched there or kept from the point before; the output buffer ends at `out0` of the input blocks.

  Region 1 (49 blocks of 2048 table rows, the last one overhanging the table by 352 rows): the query
  buffer holds the whole query array; the table buffer holds the block's rows inside the table and, past
  the table's end, words nothing names; the output buffer ends at `out1` of the two, of which only the
  columns inside the result array are written back. The data name the table buffer filled out with the
  zero word; that the columns written back do not depend on the filler is a hypothesis here (`hloc`),
  discharged where the arithmetic is read (it is false of an uninterpreted matrix product, which is
  why the frame of the word-level program forgets this region's buffers instead).
-/
import proofs.«179560_j38457137168829_2_alg».proof.Proof.KI.Body0
import proofs.«179560_j38457137168829_2_alg».proof.Proof.KI.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of pipeline 0: the arrays as found; after the body each input buffer at its block and
    the output buffer at `out0` of the input blocks; the scoped rest and the generator register pass
    through; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0 (iblk0 V c 0 t) (iblk0 V c 1 t) (iblk0 V c 2 t) (iblk0 V c 3 t) (iblk0 V c 4 t) := by dsimp only [dat0]

/-- An input buffer holds its block at every point: fetched there, or kept from the point before, whose
    block index was the same. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input buffers hold their blocks, so the body's triple applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 0, at every point. -/
theorem body_obligation0 (c : Dev nD) : BodyObligation (dat0 (F := F) V c) (defs₀ (F := F)) Variants.none () Set.univ := fun t => by
  rw [bigSep_W0, bigSep_W0]
  exact sound_body0 V c t

/-! # Region 1 -/

/-- Window `w`'s block at point `t`, read off its array as the region finds it: for the two windows
    whose last block overhangs its array, the block's part inside the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The table buffer as the data name it: the block's rows inside the table, the zero word past its end. -/
def tab1 (c : Dev nD) (t : Fin cfg1.N) : Vec F S2048x512 .f32 :=
  (cfg1.win 1).fill (cfg1.grid.coords t) (fun _ => Scalar.ofBits .f32 0#32) (iblk1 V c 1 t)

/-- The proof data of pipeline 1. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => tab1 V c t
    | ⟨2, _⟩ => out1 (iblk1 V c 0 t) (tab1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = tab1 V c t := by dsimp only [dat1]
theorem after1_2 (c : Dev nD) (t : Fin cfg1.N) : (dat1 V c).after 2 t = out1 (iblk1 V c 0 t) (tab1 V c t) := by dsimp only [dat1]

/-- The query buffer holds the whole query array at every point (fetched once, then kept). -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The table buffer, fetched at every point, holds the block's rows inside the table and `d` elsewhere. -/
theorem before1_1 (c : Dev nD) (t : Fin cfg1.N) (d) :
    (dat1 V c).before 1 t d = (cfg1.win 1).fill (cfg1.grid.coords t) d (iblk1 V c 1 t) := by
  rw [(dat1 V c).before_fetched 1 t (fetch1_1 t) d]
  unfold Dat.fetched Dat.blockOf iblk1; rw [A_eq1]

/-- The output buffer, written back at every point, comes to the body at contents nothing names. -/
theorem before1_2 (c : Dev nD) (t : Fin cfg1.N) (d) : (dat1 V c).before 2 t d = d :=
  (dat1 V c).before_out_reset 2 rfl t
    (by
      by_cases h0 : t.val = 0
      · exact .inl h0
      · exact .inr ⟨h0, flush1_2 _⟩) d

/-- THE LOOSE BODY OBLIGATION of region 1, given that the columns of the output written back do not
    depend on what the table buffer holds past the table's end (`hloc`). The query buffer is handed
    back as found; the table buffer as found, which on the rows inside the table is the named one;
    the output buffer at `out1` of what the body read, which on the columns written back is the named one. -/
theorem body_obligation1_of (c : Dev nD)
    (hloc : ∀ (t : Fin cfg1.N) (d : Vec F S2048x512 .f32),
      (cfg1.win 2).cut (cfg1.grid.coords t) (out1 (iblk1 V c 0 t) ((cfg1.win 1).fill (cfg1.grid.coords t) d (iblk1 V c 1 t)))
        = (cfg1.win 2).cut (cfg1.grid.coords t) (out1 (iblk1 V c 0 t) (tab1 V c t))) :
    BodyObligationLoose (dat1 (F := F) V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  show _ ⊢ wp frame (wpE (defs₀ (F := F)) Variants.none c none) Set.univ (bodyAt1 t) _
  unfold bodyAt1
  simp only [before1_0, before1_1, before1_2]
  iintro ⟨HΦ, Ho, ⟨%d0, H0⟩, ⟨%d1, H1⟩, ⟨%d2, H2⟩⟩
  iapply (sound_kernel1 (F := F) c Set.univ (grid1.coords t) _ _ _ _ _ _ (iblk1 V c 0 t)
    ((cfg1.win 1).fill (cfg1.grid.coords t) d1 (iblk1 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · rw [after1_0]; iexact H0
  isplitl [H1]
  · iexists d1
    rw [after1_1]; unfold tab1; rw [Window.cut_fill]; iexact H1
  · iexists (out1 (iblk1 V c 0 t) ((cfg1.win 1).fill (cfg1.grid.coords t) d1 (iblk1 V c 1 t)))
    rw [after1_2, (cfg1.win 2).fill_congr_cut (cfg1.grid.coords t) (hloc t d1)]; iexact H2

/-- THE BODY OBLIGATION of region 1 WITH ITS BUFFERS FORGOTTEN: from any contents of the three buffers
    the body runs and hands them back at some contents. (All a claim that does not read the region's
    result needs of it.) -/
theorem body_obligation1_forget (c : Dev nD) :
    BodyObligationLoose (dat1 (F := F) V c) (defs₀ (F := F)) Variants.none () Set.univ (fun _ => true) := fun t => by
  rw [bigSep_W1]
  simp only
  rw [show (dat1 V c).Φ t.succ = (dat1 V c).Φ t.castSucc from rfl,
    show (dat1 V c).owesAt () t.succ = (dat1 V c).owesAt () t.castSucc from rfl]
  show _ ⊢ wp frame (wpE (defs₀ (F := F)) Variants.none c none) Set.univ (bodyAt1 t) _
  unfold bodyAt1
  iintro ⟨HΦ, Ho, ⟨%X0, H0⟩, ⟨%X1, H1⟩, ⟨%X2, H2⟩⟩
  iapply (sound_kernel1 (F := F) c Set.univ (grid1.coords t) _ _ _ _ _ _ X0 X1 _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists _; iexact H0
  isplitl [H1]; · iexists _; iexact H1
  iexists _; iexact H2

end Cert.KernelIdeal.Hand

end
-- ==== Proof.KI.Run.lean ====
/-
  The run of the whole program, segment by segment: the two host conversions, then the two kernel
  regions. Between segments the core holds every unscoped buffer at a named valuation: the launch
  memory; that with the two converted weight arrays written; that with region 0's arrays at what its
  write-backs leave; that with region 1's arrays likewise. Every execution terminates, and at the end
  every unscoped buffer holds the last valuation — in which each argument array is read back to its
  launch contents and the result array is what region 1's write-backs leave.
-/
import proofs.«179560_j38457137168829_2_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev B0 : Dev nD → Valuation τ sig (Elt F) := fun c b => m (c, b)
/-- After the two host conversions (region 0's entry). -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b
/-- At region 0's exit: its arrays at what the pipeline leaves, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)
/-- At region 1's exit. -/
def B3 (c : Dev nD) : Valuation τ sig (Elt F) :=
  Pipeline.withArrays spec1 c (B2 m c) fun w => (dat1 (E2 m) c).arrAt w cfg1.N
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (dat1 (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)

/-! ### No segment writes an argument -/

/-- The host conversions write only the two converted weight arrays. -/
theorem B1_of (c : Dev nD) (b : Ref sig .tc) (h0 : b ≠ main_v0) (h1 : b ≠ main_v1) :
    B1 m c (Proc.devRef .tc b) = m ((c : Thread nD τ).loc b) :=
  (StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1⟩))).trans rfl

theorem B3_main_arg0 (c : Dev nD) : B3 m c (Proc.devRef .tc main_arg0) = m ((c : Thread nD τ).loc main_arg0) :=
  (B3_of_ne m c main_arg0 (by decide)).trans <| (B2_arr m c 0).trans <|
    (((dat0 (E1 m) c).arrAt_in 0 rfl _).trans (A_eq0 (E1 m) c 0)).trans (B1_of m c main_arg0 (by decide) (by decide))
theorem B3_main_arg1 (c : Dev nD) : B3 m c (Proc.devRef .tc main_arg1) = m ((c : Thread nD τ).loc main_arg1) :=
  (B3_of_ne m c main_arg1 (by decide)).trans <| (B2_of_ne m c main_arg1 (by decide)).trans (B1_of m c main_arg1 (by decide) (by decide))
theorem B3_main_arg2 (c : Dev nD) : B3 m c (Proc.devRef .tc main_arg2) = m ((c : Thread nD τ).loc main_arg2) :=
  (B3_of_ne m c main_arg2 (by decide)).trans <| (B2_arr m c 2).trans <|
    (((dat0 (E1 m) c).arrAt_in 2 rfl _).trans (A_eq0 (E1 m) c 2)).trans (B1_of m c main_arg2 (by decide) (by decide))
theorem B3_main_arg3 (c : Dev nD) : B3 m c (Proc.devRef .tc main_arg3) = m ((c : Thread nD τ).loc main_arg3) :=
  (B3_of_ne m c main_arg3 (by decide)).trans <| (B2_of_ne m c main_arg3 (by decide)).trans (B1_of m c main_arg3 (by decide) (by decide))
theorem B3_main_arg4 (c : Dev nD) : B3 m c (Proc.devRef .tc main_arg4) = m ((c : Thread nD τ).loc main_arg4) :=
  (B3_of_ne m c main_arg4 (by decide)).trans <| (B2_arr m c 4).trans <|
    (((dat0 (E1 m) c).arrAt_in 4 rfl _).trans (A_eq0 (E1 m) c 4)).trans (B1_of m c main_arg4 (by decide) (by decide))
theorem B3_main_arg5 (c : Dev nD) : B3 m c (Proc.devRef .tc main_arg5) = m ((c : Thread nD τ).loc main_arg5) :=
  (B3_arr m c 1).trans <| (((dat1 (E2 m) c).arrAt_in 1 rfl _).trans (A_eq1 (E2 m) c 1)).trans <|
    (B2_of_ne m c main_arg5 (by decide)).trans (B1_of m c main_arg5 (by decide) (by decide))
/-- The result array ends at what region 1's write-backs leave. -/
theorem B3_main_v3 (c : Dev nD) : B3 m c (Proc.devRef .tc main_v3) = (dat1 (E2 m) c).arrAt 2 cfg1.N := B3_arr m c 2

/-! ## The proof data family and the thread state -/

abbrev admH : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admH p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every segment: the generator register at some state and the
    core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem ops0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B3 m c) ∗ ∃ r, prngReg c r)

/-! ## The regions as segments -/

set_option backward.isDefEq.respectTransparency.types false in
/-- Region 0 over the thread state: entered from every unscoped buffer at `B1`, left at `B2`. -/
def reg0 : Pipeline.RegionSeg (pcfgs (F := F)) admH (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B2`, left at `B3`; its body
    obligation is a parameter (it holds where the arithmetic can be read). -/
def reg1 (hb1 : ∀ c, BodyObligationLoose (dat1 (F := F) (E2 m) c) (defs₀ (F := F)) Variants.none () Set.univ) :
    Pipeline.RegionSeg (pcfgs (F := F)) admH (pdats m) () defs₀ 𝒱₀ L lv 1 where
  win := launch1.win.to₀
  block_pos := launch1.block_pos
  stage_whole := launch1.stage_whole
  K := PEmpty
  osem k := k.elim
  ho := Pipeline.OwnSemFacts.none _
  hbody c := hb1 c
  hwaits := Pipeline.hwaits_of_owed_zero _ _ _ _ L lv 1 fun _ _ => rfl
  pre c := iprop(StableHlo.held (c : Thread nD τ) (Pipeline.ucRefs τ sig) (B2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs (hb1 : ∀ c, BodyObligationLoose (dat1 (F := F) (E2 m) c) (defs₀ (F := F)) Variants.none () Set.univ) :
    List (Pipeline.Seg (pcfgs (F := F)) admH (pdats m) () defs₀ 𝒱₀ L lv) :=
  [ .host (hseg hostOps0 hostOps0_sub ops0_fresh (B0 m)),
    .region (reg0 m),
    .region (reg1 m hb1) ]

theorem main_run (hb1 : ∀ c, BodyObligationLoose (dat1 (F := F) (E2 m) c) (defs₀ (F := F)) Variants.none () Set.univ) (c : Dev nD) :
    main (F := F) c = Pipeline.Seg.run (segs m hb1) := (main_chain c).trans (by chain_rfl)

set_option backward.isDefEq.respectTransparency.types false in
/-- THE RUN: from any memory with zero counters every execution of @main terminates, and every final
    state has every unscoped buffer at the last valuation `B3`. -/
theorem run_all (hb1 : ∀ c, BodyObligationLoose (dat1 (F := F) (E2 m) c) (defs₀ (F := F)) Variants.none () Set.univ) :
    θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) admH (pdats m) () cellOf_inj emb₁ defs₀ 𝒱₀ L lv m ρ main (segs m hb1)
    (fun c Q => by rw [main_run m hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

end Cert.KernelIdeal.Hand

end
-- ==== Proof.KI.Host.lean ====
/-
  What the two host conversions leave, read at Ideal: the two weight arrays converted to a narrower float
  format are, on the extended reals, the weight arrays themselves.
-/
import proofs.«179560_j38457137168829_2_alg».proof.Proof.KI.Run
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt Ideal) ℓ)

/-- The first converted weight array, as the first region finds it. -/
theorem E1_main_v0 (c : Dev nD) :
    (E1 m c main_v0 : S2048x1024.Idx → EReal) = (m ((c : Thread nD τ).loc main_arg1) : S2048x1024.Idx → EReal) := by
  have e : (E1 m c main_v0 : S2048x1024.Idx → EReal)
      = truncf (F := Ideal) .bf16 (m ((c : Thread nD τ).loc main_arg1) : FVec Ideal S2048x1024 .f32) bitsLt_bf16_f32 := by
    dsimp only [E1, B1, hostOps0]; after_results <;> rfl
  rw [e]; rfl

/-- The second converted weight array. -/
theorem E1_main_v1 (c : Dev nD) :
    (E1 m c main_v1 : S512x2048.Idx → EReal) = (m ((c : Thread nD τ).loc main_arg3) : S512x2048.Idx → EReal) := by
  have e : (E1 m c main_v1 : S512x2048.Idx → EReal)
      = truncf (F := Ideal) .bf16 (m ((c : Thread nD τ).loc main_arg3) : FVec Ideal S512x2048 .f32) bitsLt_bf16_f32 := by
    dsimp only [E1, B1, hostOps0]; after_results <;> rfl
  rw [e]; rfl

end Cert.KernelIdeal.Hand

end
-- ==== Proof.Spec.lean ====
/-
  The function both programs compute, index by index on the extended reals.

  A query row goes through two affine layers with a ReLU between them,
      hidRow xr j = max (∑ k, xr k · W1(j,k) + b1(j)) 0,     outRow xr d = ∑ j, hidRow xr j · W2(d,j) + b2(d),
  each row of the result and each row of the concept table is divided by its Euclidean length
  floored at ε (`unit`), and the answer at (r, n) is the inner product of the two unit rows, kept
  where it exceeds the threshold and replaced by the zero word elsewhere (`keepAbove`, `cosRow`).
  The row-wise pieces are stated over one row as a function of its coordinate, so that they read
  the same off a whole array and off any block of its rows.
  The float literals stay as the words the programs print; none is evaluated here.
-/
import Idealize.ShloMosaic.PureOps.Ideal
import Idealize.ShloMosaic.Lib.ValueIdx

noncomputable section

namespace Cert.Spec

open Idealize.ShloMosaic Idealize.ShloMosaic.ValueIdx

/-- The zero word, the floor ε of a length, and the threshold, as printed. -/
abbrev zeroW : EReal := Ideal.ofBits .f32 0x00000000#32
abbrev epsW : EReal := Ideal.ofBits .f32 0x322BCC77#32
abbrev thrW : EReal := Ideal.ofBits .f32 0x3F400000#32

/-- The hidden layer on one row `xr`: an affine map, cut off below at the zero word. -/
def hidRow (xr : Fin 1024 → EReal) (W1 : (⟨2, ![2048, 1024]⟩ : Shape).Idx → EReal)
    (b1 : (⟨1, ![2048]⟩ : Shape).Idx → EReal) (j : Fin 2048) : EReal :=
  max ((∑ k : Fin 1024, xr k * W1 (ix2 j k)) + b1 (ix1 j)) zeroW

/-- The second affine layer on one row. -/
def outRow (xr : Fin 1024 → EReal) (W1 : (⟨2, ![2048, 1024]⟩ : Shape).Idx → EReal)
    (b1 : (⟨1, ![2048]⟩ : Shape).Idx → EReal) (W2 : (⟨2, ![512, 2048]⟩ : Shape).Idx → EReal)
    (b2 : (⟨1, ![512]⟩ : Shape).Idx → EReal) (d : Fin 512) : EReal :=
  (∑ j : Fin 2048, hidRow xr W1 b1 j * W2 (ix2 d j)) + b2 (ix1 d)

/-- The length of a 512-vector, floored at ε. -/
def len (f : Fin 512 → EReal) : EReal := max (Ideal.sqrt (∑ d : Fin 512, f d * f d)) epsW

/-- A 512-vector divided by its floored length. -/
def unit (f : Fin 512 → EReal) (d : Fin 512) : EReal := Ideal.div (f d) (len f)

/-- Keep a similarity above the threshold, else the zero word. -/
def keepAbove (s : EReal) : EReal := Scalar.select (Ideal.cmp .ogt s thrW) s zeroW

/-- The gated inner product of a (unit) query row with the unit vector of a table row. -/
def cosRow (qr cr : Fin 512 → EReal) : EReal := keepAbove (∑ d : Fin 512, qr d * unit cr d)

/-- The unit query rows: the array the first kernel leaves for the second. -/
def Q (x : (⟨2, ![1024, 1024]⟩ : Shape).Idx → EReal) (W1 : (⟨2, ![2048, 1024]⟩ : Shape).Idx → EReal)
    (b1 : (⟨1, ![2048]⟩ : Shape).Idx → EReal) (W2 : (⟨2, ![512, 2048]⟩ : Shape).Idx → EReal)
    (b2 : (⟨1, ![512]⟩ : Shape).Idx → EReal) : (⟨2, ![1024, 512]⟩ : Shape).Idx → EReal :=
  fun i => unit (outRow (fun k => x (ix2 (i 0) k)) W1 b1 W2 b2) (i 1)

/-- Gated cosine similarity of the query rows `q` against the rows of the table `C`. -/
def sims (q : (⟨2, ![1024, 512]⟩ : Shape).Idx → EReal) (C : (⟨2, ![100000, 512]⟩ : Shape).Idx → EReal) :
    (⟨2, ![1024, 100000]⟩ : Shape).Idx → EReal :=
  fun i => cosRow (fun d => q (ix2 (i 0) d)) (fun e => C (ix2 (i 1) e))

/-- The whole result. -/
def G (x : (⟨2, ![1024, 1024]⟩ : Shape).Idx → EReal) (W1 : (⟨2, ![2048, 1024]⟩ : Shape).Idx → EReal)
    (b1 : (⟨1, ![2048]⟩ : Shape).Idx → EReal) (W2 : (⟨2, ![512, 2048]⟩ : Shape).Idx → EReal)
    (b2 : (⟨1, ![512]⟩ : Shape).Idx → EReal) (C : (⟨2, ![100000, 512]⟩ : Shape).Idx → EReal) :
    (⟨2, ![1024, 100000]⟩ : Shape).Idx → EReal :=
  sims (Q x W1 b1 W2 b2) C

end Cert.Spec

end
-- ==== Proof.LibLayout.lean ====
/-
  Layout operations around a unit MIDDLE or TRAILING axis, read at an index written by coordinates,
  for any element type and any extents: a shape cast that drops or inserts a unit axis in the middle
  ([a,1,b] ↔ [a,b]), the "keepdims" column of a vector ([a] → [a,1]) and its broadcast along the rows
  ([a,1] → [a,b]).  Each is the library's read-at-an-index lemma with the row-major arithmetic done.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.LibDotRowsT.lean ====
/-
  A matrix product against a transposed right operand, read at an index.  For shapes
  [R, K] · [J, K] → [R, J] whose dimension numbers contract axis 1 of the left operand with axis 1 of the
  right operand (no batch axis), the sum over the contraction index that `tpu.matmul` and `dot_general`
  denote at the ideal values is the textbook sum over `k : Fin K` of `lhs (r, k) * rhs (c, k)`.  The four
  coordinate facts about the dimension numbers' operand indices are hypotheses: for a record with literal
  lists each of them is a two-line unfolding.
-/
import Idealize.ShloMosaic.PureOps.Ideal.Laws
import Idealize.ShloMosaic.Lib.ValueIdx

noncomputable section

open scoped BigOperators

namespace Idealize.ShloMosaic.ValueIdx

open Idealize.ShloMosaic

/-- The contraction sum of an [R, K] · [J, K] product (both operands contracted on axis 1) at output index `j`
    is the sum over `k : Fin K` of the left operand at `(j 0, k)` and the right operand at `(j 1, k)`. -/
theorem dot_rowsT_sum {M : Type*} [AddCommMonoid M] {R K J : Nat}
    (d : DotDims ⟨2, ![R, K]⟩ ⟨2, ![J, K]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (j 1).val)
    (h4 : ∀ j k, (d.rhsIdx j k 1).val = (k ⟨0, by omega⟩).val)
    (g : (⟨2, ![R, K]⟩ : Shape).Idx → (⟨2, ![J, K]⟩ : Shape).Idx → M) (j : (⟨2, ![R, J]⟩ : Shape).Idx) :
    ∑ k : d.contr.Idx, g (d.lhsIdx j k) (d.rhsIdx j k) = ∑ k : Fin K, g (ix2 (j 0) k) (ix2 (j 1) k) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 (j 1) k := by
    funext a
    match a with
    | ⟨0, _⟩ => exact Fin.ext (h3 j _)
    | ⟨1, _⟩ => exact Fin.ext ((h4 j _).trans (contrEquiv1_symm_val d K hr hs k))
  exact congrArg₂ g e1 e2

/-- A `tpu.matmul` of [R, K] against [J, K] into the zero accumulator, at the ideal values, read at `(r, c)`. -/
theorem matmul_zero_rowsT {R K J : Nat} {φ₁ φ₂ : FTy}
    (d : DotDims ⟨2, ![R, K]⟩ ⟨2, ![J, K]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (j 1).val)
    (h4 : ∀ j k, (d.rhsIdx j k 1).val = (k ⟨0, by omega⟩).val)
    (lhs : FVec Ideal ⟨2, ![R, K]⟩ φ₁) (rhs : FVec Ideal ⟨2, ![J, K]⟩ φ₂) (r : Fin R) (c : Fin J) :
    FloatOps.matmul d prec lhs rhs (constant ⟨2, ![R, J]⟩ .f32 0x00000000#32) (ix2 r c)
      = ∑ k : Fin K, lhs (ix2 r k) * rhs (ix2 c k) := by
  rw [Ideal.matmul_constant_zero_apply]
  exact dot_rowsT_sum d hr hs h1 h2 h3 h4 (fun a b => lhs a * rhs b) (ix2 r c)

end Idealize.ShloMosaic.ValueIdx

end
-- ==== Proof.KI.Pay.lean ====
/-
  The arithmetic of the two kernels read at an index, on the extended reals.

  The first kernel's stored block is, row by row, the two affine layers with the cut-off at zero
  between them, each row then divided by its Euclidean length floored at ε.  The second kernel's two
  stored halves are one and the same arithmetic on two loads of the table: each table row divided by
  its floored length, the inner products of the query rows with those unit rows, and the cut at the
  threshold.  Every matrix product here contracts axis 1 of both operands (a product against a transposed
  right operand) into a zero accumulator, so at the ideal values it is the plain sum over the shared
  coordinate; every row sum is a one-axis reduction; the remaining operations act coordinate by
  coordinate or only move coordinates.
-/
import proofs.«179560_j38457137168829_2_alg».proof.Proof.Gen.KernelIdeal.Skeleton
import proofs.«179560_j38457137168829_2_alg».proof.Proof.Spec
import proofs.«179560_j38457137168829_2_alg».proof.Proof.LibLayout
import proofs.«179560_j38457137168829_2_alg».proof.Proof.LibDotRowsT
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The three non-pointwise operations, read at an index -/

/-- A product [R, K] · [J, K] → [R, J] contracting axis 1 of both operands into the zero
    accumulator is, at (r, c), the sum over k of lhs (r, k) · rhs (c, k). -/
theorem matmulT_apply {R K J : ℕ} {φ₁ φ₂ : FTy}
    (wf : DotDims.WF ⟨2, ![R, K]⟩ ⟨2, ![J, K]⟩ ⟨2, ![R, J]⟩ [1] [1] [0] [0] [] [])
    (prec : Option ContractPrecision)
    (lhs : FVec Ideal ⟨2, ![R, K]⟩ φ₁) (rhs : FVec Ideal ⟨2, ![J, K]⟩ φ₂) (r : Fin R) (c : Fin J) :
    FloatOps.matmul (⟨[1], [1], [0], [0], [], [], wf⟩ : DotDims ⟨2, ![R, K]⟩ ⟨2, ![J, K]⟩ ⟨2, ![R, J]⟩)
        prec lhs rhs (constant ⟨2, ![R, J]⟩ .f32 0x00000000#32) (ix2 r c)
      = ∑ k : Fin K, lhs (ix2 r k) * rhs (ix2 c k) :=
  matmul_zero_rowsT (⟨[1], [1], [0], [0], [], [], wf⟩ : DotDims ⟨2, ![R, K]⟩ ⟨2, ![J, K]⟩ ⟨2, ![R, J]⟩)
    prec rfl rfl
    (fun j k => rfl)
    (fun j k => DotDims.lhsIdx_val_of_single _ rfl j k)
    (fun j k => rfl)
    (fun j k => DotDims.rhsIdx_val_of_single _ rfl j k)
    lhs rhs r c

/-- The sum along the rows of an [a, b] matrix (a reduction over axis 1), at row r. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (r : Fin a) :
    multiReduction (F := Ideal) .add [1] ⟨1, ![a]⟩ src 0x00000000#32 h hφ hacc (ix1 r)
      = ∑ k : Fin b, src (ix2 r k) :=
  (Ideal.multiReduction_add_single src _ h hφ hacc (ix1 r)).trans
    (Finset.sum_congr rfl fun k _ => congrArg src (funext fun c => Fin.ext (by
      match c with
      | ⟨0, _⟩ => rfl
      | ⟨1, _⟩ => rfl)))

/-! ## Rows divided by their floored lengths -/

section Rows
variable {F : FTy → Type} [FloatOps F]

/-- The rows of an [a, 512] matrix, each divided by its Euclidean length floored at ε: the row sums
    of squares, laid out as a column, its square root, the maximum with ε, the column copied along
    the rows, and the quotient. -/
def unitRows {a : ℕ} (x : FVec F ⟨2, ![a, 512]⟩ .f32)
    (hred : Shape.Reduces ⟨2, ![a, 512]⟩ [1] ⟨1, ![a]⟩)
    (hc : (⟨1, ![a]⟩ : Shape).ShapeCasts ⟨2, ![a, 1]⟩)
    (hb : (⟨2, ![a, 1]⟩ : Shape).Broadcasts ⟨2, ![a, 512]⟩) : FVec F ⟨2, ![a, 512]⟩ .f32 :=
  divf x (broadcastTo ⟨2, ![a, 512]⟩
    (maximumf
      (sqrt (shapeCast ⟨2, ![a, 1]⟩
        (multiReduction .add [1] ⟨1, ![a]⟩ (mulf x x) 0x00000000#32 hred (.inl rfl) rfl) hc))
      (broadcast ⟨2, ![a, 1]⟩ (Scalar.ofBits .f32 0x322BCC77#32))) hb)

end Rows

/-- At (r, d) it is the r-th row, as a vector, divided by its floored length, at d. -/
theorem unitRows_apply {a : ℕ} (x : FVec Ideal ⟨2, ![a, 512]⟩ .f32)
    (hred : Shape.Reduces ⟨2, ![a, 512]⟩ [1] ⟨1, ![a]⟩)
    (hc : (⟨1, ![a]⟩ : Shape).ShapeCasts ⟨2, ![a, 1]⟩)
    (hb : (⟨2, ![a, 1]⟩ : Shape).Broadcasts ⟨2, ![a, 512]⟩) (r : Fin a) (d : Fin 512) :
    unitRows (F := Ideal) x hred hc hb (ix2 r d) = Cert.Spec.unit (fun k => x (ix2 r k)) d := by
  unfold unitRows Cert.Spec.unit Cert.Spec.len
  show Ideal.div (x (ix2 r d)) (broadcastTo ⟨2, ![a, 512]⟩ _ hb (ix2 r d)) = _
  refine congrArg (Ideal.div (x (ix2 r d))) ?_
  refine (broadcastTo_a1_ab_apply _ hb r d).trans ?_
  show max (Ideal.sqrt (shapeCast ⟨2, ![a, 1]⟩ _ hc (ix2 r (0 : Fin 1)))) (Ideal.ofBits .f32 0x322BCC77#32) = _
  refine congrArg (fun t => max (Ideal.sqrt t) (Ideal.ofBits .f32 0x322BCC77#32)) ?_
  refine (shapeCast_a_a1_apply _ hc r 0).trans ?_
  exact rowSum_apply (mulf x x) hred (.inl rfl) rfl r

/-! ## The first kernel: two affine layers, then unit rows -/

section Layers
variable {F : FTy → Type} [FloatOps F]

/-- The hidden layer of a block of 512 rows: the product with the first weight matrix (both
    contracted on axis 1), the first bias copied down the rows, the maximum with the zero splat. -/
def hid0 (v0 : Vec F S512x1024 .f32) (v2 : Vec F S2048x1024 .bf16) (v5 : Vec F S2048 .f32) :
    FVec F S512x2048 .f32 :=
  maximumf
    (addf
      (matmul dot_S512x1024_S2048x1024_S512x2048_1_1_0_0_n_n none (truncf .bf16 v0 bitsLt_bf16_f32)
        (shapeCast S2048x1024 v2 shapeCasts_S2048x1024_S2048x1024) (constant S512x2048 .f32 0x00000000#32))
      (broadcastTo S512x2048 (shapeCast S1x2048 v5 shapeCasts_S2048_S1x2048) broadcasts_S1x2048_S512x2048))
    (broadcast S512x2048 (Scalar.ofBits .f32 0x00000000#32))

/-- The second affine layer of the block. -/
def out0 (v0 : Vec F S512x1024 .f32) (v2 : Vec F S2048x1024 .bf16) (v5 : Vec F S2048 .f32)
    (v12 : Vec F S512x2048 .bf16) (v15 : Vec F S512 .f32) : FVec F S512x512 .f32 :=
  addf
    (matmul dot_S512x2048_S512x2048_S512x512_1_1_0_0_n_n none (truncf .bf16 (hid0 v0 v2 v5) bitsLt_bf16_f32)
      (shapeCast S512x2048 v12 shapeCasts_S512x2048_S512x2048) (constant S512x512 .f32 0x00000000#32))
    (broadcastTo S512x512 (shapeCast S1x512 v15 shapeCasts_S512_S1x512) broadcasts_S1x512_S512x512)

/-- The first kernel's stored value is the unit rows of the second layer's output. -/
theorem pay0_eq (v0 : Vec F S512x1024 .f32) (v2 : Vec F S2048x1024 .bf16) (v5 : Vec F S2048 .f32)
    (v12 : Vec F S512x2048 .bf16) (v15 : Vec F S512 .f32) :
    k0_pay1 v0 v2 v5 v12 v15
      = unitRows (out0 v0 v2 v5 v12 v15) reduces_S512x512_S512 shapeCasts_S512_S512x1 broadcasts_S512x1_S512x512 :=
  rfl

end Layers

theorem hid0_apply (v0 : Vec Ideal S512x1024 .f32) (v2 : Vec Ideal S2048x1024 .bf16) (v5 : Vec Ideal S2048 .f32)
    (r : Fin 512) (j : Fin 2048) :
    hid0 (F := Ideal) v0 v2 v5 (ix2 r j) = Cert.Spec.hidRow (fun k => v0 (ix2 r k)) v2 v5 j := by
  unfold hid0 Cert.Spec.hidRow
  rw [shapeCast_self v2]
  show max (FloatOps.matmul _ none _ _ _ (ix2 r j)
      + broadcastTo S512x2048 _ broadcasts_S1x2048_S512x2048 (ix2 r j)) (Ideal.ofBits .f32 0x00000000#32) = _
  refine congrArg (fun t => max t (Ideal.ofBits .f32 0x00000000#32)) ?_
  refine congrArg₂ (· + ·) ?_ ?_
  · exact matmulT_apply (φ₁ := .bf16) (φ₂ := .bf16) _ none _ _ r j
  · refine (broadcastTo_1b_ab_apply _ _ r j).trans ?_
    exact shapeCast_a_1a_apply v5 _ 0 j

theorem out0_apply (v0 : Vec Ideal S512x1024 .f32) (v2 : Vec Ideal S2048x1024 .bf16) (v5 : Vec Ideal S2048 .f32)
    (v12 : Vec Ideal S512x2048 .bf16) (v15 : Vec Ideal S512 .f32) (r d : Fin 512) :
    out0 (F := Ideal) v0 v2 v5 v12 v15 (ix2 r d)
      = Cert.Spec.outRow (fun k => v0 (ix2 r k)) v2 v5 v12 v15 d := by
  unfold out0 Cert.Spec.outRow
  rw [shapeCast_self v12]
  show FloatOps.matmul _ none _ _ _ (ix2 r d)
      + broadcastTo S512x512 _ broadcasts_S1x512_S512x512 (ix2 r d) = _
  refine congrArg₂ (· + ·) ?_ ?_
  · refine (matmulT_apply (φ₁ := .bf16) (φ₂ := .bf16) _ none _ _ r d).trans ?_
    exact Finset.sum_congr rfl fun j _ => congrArg (· * v12 (ix2 d j)) (hid0_apply v0 v2 v5 r j)
  · refine (broadcastTo_1b_ab_apply _ _ r d).trans ?_
    exact shapeCast_a_1a_apply v15 _ 0 d

/-- The first kernel's stored block at (r, d): the unit vector of the r-th row's second-layer output. -/
theorem pay0_apply (v0 : Vec Ideal S512x1024 .f32) (v2 : Vec Ideal S2048x1024 .bf16) (v5 : Vec Ideal S2048 .f32)
    (v12 : Vec Ideal S512x2048 .bf16) (v15 : Vec Ideal S512 .f32) (r d : Fin 512) :
    k0_pay1 (F := Ideal) v0 v2 v5 v12 v15 (ix2 r d)
      = Cert.Spec.unit (Cert.Spec.outRow (fun k => v0 (ix2 r k)) v2 v5 v12 v15) d := by
  rw [pay0_eq]
  refine (unitRows_apply _ _ _ _ r d).trans ?_
  exact congrArg (fun f => Cert.Spec.unit f d) (funext fun k => out0_apply v0 v2 v5 v12 v15 r k)

/-! ## The second kernel: gated inner products with the table's unit rows -/

section Cosine
variable {F : FTy → Type} [FloatOps F]

/-- The inner products of the query rows with the unit rows of a block `c` of 1024 table rows: the
    product of the query block with the block's unit rows, both contracted on axis 1. -/
def simBlock (q c : Vec F S1024x512 .f32) : FVec F S1024x1024 .f32 :=
  matmul dot_S1024x512_S1024x512_S1024x1024_1_1_0_0_n_n none
    (truncf .bf16 (shapeCast S1024x512 q shapeCasts_S1024x512_S1024x512) bitsLt_bf16_f32)
    (truncf .bf16
      (unitRows c reduces_S1024x512_S1024 shapeCasts_S1024_S1024x1 broadcasts_S1024x1_S1024x512)
      bitsLt_bf16_f32)
    (constant S1024x1024 .f32 0x00000000#32)

/-- Those inner products kept where they exceed the threshold splat, the zero splat elsewhere. -/
def cosBlock (q c : Vec F S1024x512 .f32) : FVec F S1024x1024 .f32 :=
  select (cmpf .ogt (simBlock q c) (broadcast S1024x1024 (Scalar.ofBits .f32 0x3F400000#32)))
    (simBlock q c) (broadcast S1024x1024 (Scalar.ofBits .f32 0x00000000#32))

/-- Both stored halves of the second kernel are this one function, of the first and of the second
    load of the table. -/
theorem pay1_lo_eq (v0 v3 : Vec F S1024x512 .f32) : k1_pay2 v0 v3 = cosBlock v0 v3 := rfl
theorem pay1_hi_eq (v0 v19 : Vec F S1024x512 .f32) : k1_pay3 v0 v19 = cosBlock v0 v19 := rfl

end Cosine

theorem simBlock_apply (q c : Vec Ideal S1024x512 .f32) (b j : Fin 1024) :
    simBlock (F := Ideal) q c (ix2 b j)
      = ∑ d : Fin 512, q (ix2 b d) * Cert.Spec.unit (fun e => c (ix2 j e)) d := by
  unfold simBlock
  rw [shapeCast_self q]
  refine (matmulT_apply (φ₁ := .bf16) (φ₂ := .bf16) _ none _ _ b j).trans ?_
  exact Finset.sum_congr rfl fun d _ => congrArg (q (ix2 b d) * ·) (unitRows_apply c _ _ _ j d)

/-- The one lemma for the second kernel's arithmetic. -/
theorem cosBlock_apply (q c : Vec Ideal S1024x512 .f32) (b j : Fin 1024) :
    cosBlock (F := Ideal) q c (ix2 b j)
      = Cert.Spec.cosRow (fun d => q (ix2 b d)) (fun e => c (ix2 j e)) := by
  unfold cosBlock Cert.Spec.cosRow
  show Cert.Spec.keepAbove (simBlock (F := Ideal) q c (ix2 b j)) = _
  exact congrArg Cert.Spec.keepAbove (simBlock_apply q c b j)

theorem pay1_lo_apply (v0 : Vec Ideal S1024x512 .f32) (v3 : Vec Ideal S1024x512 .f32) (b j : Fin 1024) :
    k1_pay2 (F := Ideal) v0 v3 (ix2 b j)
      = Cert.Spec.cosRow (fun d => v0 (ix2 b d)) (fun e => v3 (ix2 j e)) := by
  rw [pay1_lo_eq]
  exact cosBlock_apply v0 v3 b j

theorem pay1_hi_apply (v0 : Vec Ideal S1024x512 .f32) (v19 : Vec Ideal S1024x512 .f32) (b j : Fin 1024) :
    k1_pay3 (F := Ideal) v0 v19 (ix2 b j)
      = Cert.Spec.cosRow (fun d => v0 (ix2 b d)) (fun e => v19 (ix2 j e)) := by
  rw [pay1_hi_eq]
  exact cosBlock_apply v0 v19 b j

end Cert.KernelIdeal.Pay

end
-- ==== Proof.KI.Val0.lean ====
/-
  The first region leaves the unit query rows in its result array.

  The region runs over two points. At point t the query buffer holds rows 512 t … 512 t + 511 of the
  query array, the four other input buffers hold the two weight matrices and the two biases whole
  (each is a single block, at block index zero), and the body overwrites the output buffer with one
  value of these five. On the extended reals that value at (r, d) is the unit vector of the second
  affine layer of row r of the query buffer, at d; row r of the buffer is row 512 t + r of the array,
  so the value is `Q` of the arrays at (512 t + r, d): the block written back at point t is block t
  of `Q`. Row i of the [1024, 512] result lies in block i / 512, both points write their block back,
  and so the array ends holding `Q` everywhere.
-/
import proofs.«179560_j38457137168829_2_alg».proof.Proof.KI.Data
import proofs.«179560_j38457137168829_2_alg».proof.Proof.KI.Pay
import proofs.«179560_j38457137168829_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-- The zero offsets of a whole-buffer rectangle, of rank two and of rank one. -/
theorem r0_zeros2 : (![0, 0] : Fin 2 → Nat) = fun _ => 0 := funext fun a => by fin_cases a <;> rfl
theorem r0_zeros1 : (![0] : Fin 1 → Nat) = fun _ => 0 := funext fun a => by fin_cases a; rfl

/-- The body reads its five buffers whole and stores one value over the whole output buffer: what the
    output buffer ends holding is that value of the inputs' contents. -/
theorem out0_eq_pay (x0 : Vec F S512x1024 .f32) (x1 : Vec F S2048x1024 .bf16) (x2 : Vec F S2048 .f32)
    (x3 : Vec F S512x2048 .bf16) (x4 : Vec F S512 .f32) :
    out0 x0 x1 x2 x3 x4 = k0_pay1 x0 x1 x2 x3 x4 := by
  unfold out0
  rw [View.canon_unit_zero r0_zeros2]
  simp only [View.ld_unit_zero (S := S512x1024) r0_zeros2, View.ld_unit_zero (S := S2048x1024) r0_zeros2,
    View.ld_unit_zero (S := S2048) r0_zeros1, View.ld_unit_zero (S := S512x2048) r0_zeros2,
    View.ld_unit_zero (S := S512) r0_zeros1]

/-- The block indices at the two points: the query window and the output window sit at block (t, 0),
    the weights and biases at block 0. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Block t of the queries: row r of the block is row 512 t + r of the array. -/
theorem iblk0_0_apply (c : Dev nD) (t : Fin cfg0.N) (x : S512x1024.Idx) (k : S1024x1024.Idx)
    (hk0 : (k 0).val = 512 * t.val + (x 0).val) (hk1 : (k 1).val = (x 1).val) :
    (iblk0 V c 0 t : Vec F S512x1024 .f32) x = (V c main_arg0 : S1024x1024.Idx → Elt F .f32) k := by
  obtain ⟨e0, e1, -⟩ := idx_facts0 t
  unfold iblk0
  rw [View.read_apply]
  show V c main_arg0 _ = V c main_arg0 _
  refine congrArg (V c main_arg0 : S1024x1024.Idx → Elt F .f32) ?_
  funext a
  apply Fin.ext
  match a with
  | ⟨0, _⟩ => show win0_0.index t (0 : Fin 2) * 512 + 1 * (x 0).val = (k 0).val; rw [e0, hk0]; omega
  | ⟨1, _⟩ => show win0_0.index t (1 : Fin 2) * 1024 + 1 * (x 1).val = (k 1).val; rw [e1, hk1]; omega

/-- The first weight matrix is one block: the block is the array. -/
theorem iblk0_1_eq (c : Dev nD) (t : Fin cfg0.N) :
    (iblk0 V c 1 t : Vec F S2048x1024 .bf16) = (V c main_v0 : S2048x1024.Idx → Elt F .bf16) := by
  obtain ⟨-, -, e0, e1, -⟩ := idx_facts0 t
  funext x
  unfold iblk0
  rw [View.read_apply]
  show V c main_v0 _ = V c main_v0 x
  refine congrArg (V c main_v0 : S2048x1024.Idx → Elt F .bf16) ?_
  funext a
  apply Fin.ext
  match a with
  | ⟨0, _⟩ => show win0_1.index t (0 : Fin 2) * 2048 + 1 * (x 0).val = (x 0).val; rw [e0]; omega
  | ⟨1, _⟩ => show win0_1.index t (1 : Fin 2) * 1024 + 1 * (x 1).val = (x 1).val; rw [e1]; omega

/-- The first bias is one block. -/
theorem iblk0_2_eq (c : Dev nD) (t : Fin cfg0.N) :
    (iblk0 V c 2 t : Vec F S2048 .f32) = (V c main_arg2 : S2048.Idx → Elt F .f32) := by
  obtain ⟨-, -, -, -, e0, -⟩ := idx_facts0 t
  funext x
  unfold iblk0
  rw [View.read_apply]
  show V c main_arg2 _ = V c main_arg2 x
  refine congrArg (V c main_arg2 : S2048.Idx → Elt F .f32) ?_
  funext a
  apply Fin.ext
  match a with
  | ⟨0, _⟩ => show win0_2.index t (0 : Fin 1) * 2048 + 1 * (x 0).val = (x 0).val; rw [e0]; omega

/-- The second weight matrix is one block. -/
theorem iblk0_3_eq (c : Dev nD) (t : Fin cfg0.N) :
    (iblk0 V c 3 t : Vec F S512x2048 .bf16) = (V c main_v1 : S512x2048.Idx → Elt F .bf16) := by
  obtain ⟨-, -, -, -, -, e0, e1, -⟩ := idx_facts0 t
  funext x
  unfold iblk0
  rw [View.read_apply]
  show V c main_v1 _ = V c main_v1 x
  refine congrArg (V c main_v1 : S512x2048.Idx → Elt F .bf16) ?_
  funext a
  apply Fin.ext
  match a with
  | ⟨0, _⟩ => show win0_3.index t (0 : Fin 2) * 512 + 1 * (x 0).val = (x 0).val; rw [e0]; omega
  | ⟨1, _⟩ => show win0_3.index t (1 : Fin 2) * 2048 + 1 * (x 1).val = (x 1).val; rw [e1]; omega

/-- The second bias is one block. -/
theorem iblk0_4_eq (c : Dev nD) (t : Fin cfg0.N) :
    (iblk0 V c 4 t : Vec F S512 .f32) = (V c main_arg4 : S512.Idx → Elt F .f32) := by
  obtain ⟨-, -, -, -, -, -, -, e0, -⟩ := idx_facts0 t
  funext x
  unfold iblk0
  rw [View.read_apply]
  show V c main_arg4 _ = V c main_arg4 x
  refine congrArg (V c main_arg4 : S512.Idx → Elt F .f32) ?_
  funext a
  apply Fin.ext
  match a with
  | ⟨0, _⟩ => show win0_4.index t (0 : Fin 1) * 512 + 1 * (x 0).val = (x 0).val; rw [e0]; omega

section AtIdeal

variable (W : (c : Dev nD) → (b : Ref sig .tc) → Buf (Elt Ideal) ((c : Thread nD τ).loc b))

/-- One block of 512 query rows, on the extended reals: if the query buffer holds rows 512 p … 512 p + 511
    of an array `A0` and the other four buffers hold the weights and biases, then the stored value at
    (r, d) is the unit query row `Q` of `A0` at (512 p + r, d). -/
theorem blk0_eq
    (x0 : Vec Ideal S512x1024 .f32) (x1 : Vec Ideal S2048x1024 .bf16) (x2 : Vec Ideal S2048 .f32)
    (x3 : Vec Ideal S512x2048 .bf16) (x4 : Vec Ideal S512 .f32)
    (A0 : S1024x1024.Idx → EReal) (A1 : Vec Ideal S2048x1024 .bf16) (A2 : Vec Ideal S2048 .f32)
    (A3 : Vec Ideal S512x2048 .bf16) (A4 : Vec Ideal S512 .f32) (p : Nat)
    (h0 : ∀ (x : S512x1024.Idx) (k : S1024x1024.Idx), (k 0).val = 512 * p + (x 0).val → (k 1).val = (x 1).val → x0 x = A0 k)
    (h1 : x1 = A1) (h2 : x2 = A2) (h3 : x3 = A3) (h4 : x4 = A4)
    (y : S512x512.Idx) (i : S1024x512.Idx) (hi0 : (i 0).val = 512 * p + (y 0).val) (hi1 : (i 1).val = (y 1).val) :
    k0_pay1 (F := Ideal) x0 x1 x2 x3 x4 y = Cert.Spec.Q A0 A1 A2 A3 A4 i := by
  subst h1 h2 h3 h4
  obtain ⟨r, d, rfl⟩ : ∃ (r d : Fin 512), y = ix2 r d := ⟨y 0, y 1, eq_ix2 y⟩
  obtain ⟨a, b, rfl⟩ : ∃ (a : Fin 1024) (b : Fin 512), i = ix2 a b := ⟨i 0, i 1, eq_ix2 i⟩
  have hb : b = d := Fin.ext hi1
  subst hb
  rw [Cert.KernelIdeal.Pay.pay0_apply]
  show Cert.Spec.unit (Cert.Spec.outRow (fun k => x0 (ix2 r k)) x1 x2 x3 x4) b
    = Cert.Spec.unit (Cert.Spec.outRow (fun k => A0 (ix2 a k)) x1 x2 x3 x4) b
  have hrow : (fun k : Fin 1024 => x0 (ix2 r k)) = fun k => A0 (ix2 a k) :=
    funext fun k => h0 (ix2 r k) (ix2 a k) hi0 rfl
  rw [hrow]

/-- What point t writes back is block t of the unit query rows of the arrays as the region finds them. -/
theorem flushed0_eq
    (c : Dev nD) (t : Fin cfg0.N) :
    (dat0 (F := Ideal) W c).flushed 5 t = ((cfg0.win 5).blk t).view.read (Elt Ideal)
      (Cert.Spec.Q (W c main_arg0) (W c main_v0) (W c main_arg2) (W c main_v1) (W c main_arg4)) := by
  show (cfg0.win 5).cut (grid0.coords t) ((dat0 W c).after 5 t) = _
  rw [after0_5, out0_eq_pay]
  obtain ⟨-, -, -, -, -, -, -, -, e0, e1⟩ := idx_facts0 t
  funext y
  show k0_pay1 (F := Ideal) (iblk0 W c 0 t) (iblk0 W c 1 t) (iblk0 W c 2 t) (iblk0 W c 3 t) (iblk0 W c 4 t) y
    = Cert.Spec.Q (W c main_arg0) (W c main_v0) (W c main_arg2) (W c main_v1) (W c main_arg4)
        (((cfg0.win 5).blk t).view.emb y)
  refine blk0_eq _ _ _ _ _ _ _ _ _ _ t.val (fun x k hk0 hk1 => iblk0_0_apply W c t x k hk0 hk1)
    (iblk0_1_eq W c t) (iblk0_2_eq W c t) (iblk0_3_eq W c t) (iblk0_4_eq W c t) y _ ?_ ?_
  · show win0_5.index t (0 : Fin 2) * 512 + 1 * (y 0).val = 512 * t.val + (y 0).val
    rw [e0]; omega
  · show win0_5.index t (1 : Fin 2) * 512 + 1 * (y 1).val = (y 1).val
    rw [e1]; omega

/-- An index of the result array is in point t's block iff each coordinate is in the block's range. -/
theorem mem_blk0_5 (t : Fin cfg0.N) (i : S1024x512.Idx) :
    i ∈ ((cfg0.win 5).blk t).view.set ↔ ∀ a : Fin 2, win0_5.index t a * S512x512.size a ≤ (i a).val
      ∧ (i a).val < win0_5.index t a * S512x512.size a + S512x512.size a := by
  show i ∈ ((View.whole main_v2).slice (win0_5.rect t)).set ↔ _
  rw [View.set_slice_whole, Rect.mem_set_unit]
  exact Iff.rfl

/-- The two blocks fill the array: row i lies in block i / 512. -/
theorem cover0_5 (i : S1024x512.Idx) :
    ∃ t : Fin cfg0.N, (cfg0.win 5).flush t = true ∧ i ∈ ((cfg0.win 5).blk t).view.set := by
  have hi0 : (i 0).val < 1024 := (i 0).isLt
  have hi1 : (i 1).val < 512 := (i 1).isLt
  have ht : (i 0).val / 512 < cfg0.N := by
    show (i 0).val / 512 < grid0.N
    rw [N_0]; omega
  refine ⟨⟨(i 0).val / 512, ht⟩, flush0_5 _, ?_⟩
  rw [mem_blk0_5]
  obtain ⟨-, -, -, -, -, -, -, -, e0, e1⟩ := idx_facts0 ⟨(i 0).val / 512, ht⟩
  intro a
  match a with
  | ⟨0, _⟩ =>
    show win0_5.index ⟨(i 0).val / 512, ht⟩ (0 : Fin 2) * 512 ≤ (i 0).val
      ∧ (i 0).val < win0_5.index ⟨(i 0).val / 512, ht⟩ (0 : Fin 2) * 512 + 512
    rw [e0]
    show (i 0).val / 512 * 512 ≤ (i 0).val ∧ (i 0).val < (i 0).val / 512 * 512 + 512
    omega
  | ⟨1, _⟩ =>
    show win0_5.index ⟨(i 0).val / 512, ht⟩ (1 : Fin 2) * 512 ≤ (i 1).val
      ∧ (i 1).val < win0_5.index ⟨(i 0).val / 512, ht⟩ (1 : Fin 2) * 512 + 512
    rw [e1]
    omega

/-- The result array of the first region ends holding the unit query rows. -/
theorem final0
    (c : Dev nD) :
    (dat0 (F := Ideal) W c).arrAt 5 cfg0.N
      = Cert.Spec.Q (W c main_arg0) (W c main_v0) (W c main_arg2) (W c main_v1) (W c main_arg4) :=
  (dat0 W c).arrAt_eq_of_cover 5 _ (fun t _ => flushed0_eq W c t) cover0_5

end AtIdeal

end Cert.KernelIdeal.Hand

end
-- ==== Proof.KI.Val1.lean ====
/-
  The second kernel's output buffer read at an index, on the extended reals.

  After the body the output buffer holds, at row b and column j, the gated inner product of row b of
  the query buffer with the unit vector of row j of the table buffer: columns below 1024 come from
  the store of the first half (computed from table rows 0‥1023), the others from the store of the
  second half (computed from table rows 1024‥2047), and each half's arithmetic at an index is that
  gated inner product.  So column j depends on the table buffer only through its row j.  A column the
  write-back moves at a grid point is a row the fetch moved there (the table's window and the result's
  window are cut alike: same block index, same extents 2048 against 100000), and on a moved row the
  table buffer holds the fetched block whatever it held before: the columns written back do not depend
  on what the table buffer holds past the table's end.
-/
import proofs.«179560_j38457137168829_2_alg».proof.Proof.KI.Data
import proofs.«179560_j38457137168829_2_alg».proof.Proof.KI.Pay
import proofs.«179560_j38457137168829_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

/-! ## The output buffer at an index -/

section Pair
variable {Val : EltTy → Type} [∀ e, Nonempty (Val e)] {S : Shape} {e : EltTy}

/-- Of two stores, the later one's payload is what an index under it reads; -/
theorem canon_pair_fst (r1 r2 : Rect S) (w1 : r1.shape.Idx → Val e) (w2 : r2.shape.Idx → Val e) (x : r1.shape.Idx) :
    View.canon [(⟨r1, w1⟩ : View.Piece Val S e), ⟨r2, w2⟩] (r1.emb x) = w1 x :=
  View.canon_cons_emb r1 w1 [⟨r2, w2⟩] x

/-- an index under the earlier one and off the later one reads the earlier one's. -/
theorem canon_pair_snd (r1 r2 : Rect S) (w1 : r1.shape.Idx → Val e) (w2 : r2.shape.Idx → Val e) (x : r2.shape.Idx)
    (h : r2.emb x ∉ r1.set) :
    View.canon [(⟨r1, w1⟩ : View.Piece Val S e), ⟨r2, w2⟩] (r2.emb x) = w2 x :=
  (View.canon_cons_of_not_mem (⟨r1, w1⟩ : View.Piece Val S e) [⟨r2, w2⟩] h).trans (View.canon_cons_emb r2 w2 [] x)

end Pair

/-- The load of the whole query buffer reads it. -/
theorem ld_qry (x0 : Vec Ideal S1024x512 .f32) (b : Fin 1024) (d : Fin 512) :
    View.ld x0 rQry (ix2 b d) = x0 (ix2 b d) :=
  congrArg x0 (funext fun a => Fin.ext (by
    match a with
    | ⟨0, _⟩ => show 0 + 1 * b.val = b.val; omega
    | ⟨1, _⟩ => show 0 + 1 * d.val = d.val; omega))

/-- The first load of the table buffer reads its rows 0‥1023, -/
theorem ld_tabLo (x1 : Vec Ideal S2048x512 .f32) (j : Fin 2048) (j' : Fin 1024) (hj : j'.val = j.val) (k : Fin 512) :
    View.ld x1 rTabLo (ix2 j' k) = x1 (ix2 j k) :=
  congrArg x1 (funext fun a => Fin.ext (by
    match a with
    | ⟨0, _⟩ => show 0 + 1 * j'.val = j.val; omega
    | ⟨1, _⟩ => show 0 + 1 * k.val = k.val; omega))

/-- the second its rows 1024‥2047. -/
theorem ld_tabHi (x1 : Vec Ideal S2048x512 .f32) (j : Fin 2048) (j' : Fin 1024) (hj : 1024 + j'.val = j.val) (k : Fin 512) :
    View.ld x1 rTabHi (ix2 j' k) = x1 (ix2 j k) :=
  congrArg x1 (funext fun a => Fin.ext (by
    match a with
    | ⟨0, _⟩ => show 1024 + 1 * j'.val = j.val; omega
    | ⟨1, _⟩ => show 0 + 1 * k.val = k.val; omega))

/-- Column j below 1024 is column j of the first stored half, and is not under the second store; -/
theorem idx_lo (b : Fin 1024) (j : Fin 2048) (j' : Fin 1024) (hj : j'.val = j.val) :
    (ix2 b j : S1024x2048.Idx) = rSimLo.emb (ix2 b j') :=
  funext fun a => Fin.ext (by
    match a with
    | ⟨0, _⟩ => show b.val = 0 + 1 * b.val; omega
    | ⟨1, _⟩ => show j.val = 0 + 1 * j'.val; omega)

theorem lo_not_hi (b j' : Fin 1024) : rSimLo.emb (ix2 b j') ∉ rSimHi.set := by
  rw [Rect.mem_set_unit]
  intro h
  have h1 : 1024 ≤ 0 + 1 * j'.val := (h (1 : Fin 2)).1
  have := j'.isLt
  omega

/-- column j from 1024 on is column j − 1024 of the second. -/
theorem idx_hi (b : Fin 1024) (j : Fin 2048) (j' : Fin 1024) (hj : 1024 + j'.val = j.val) :
    (ix2 b j : S1024x2048.Idx) = rSimHi.emb (ix2 b j') :=
  funext fun a => Fin.ext (by
    match a with
    | ⟨0, _⟩ => show b.val = 0 + 1 * b.val; omega
    | ⟨1, _⟩ => show j.val = 1024 + 1 * j'.val; omega)

/-- Row b, column j of the output buffer after the body: the gated inner product of query row b
    with the unit vector of table-buffer row j. -/
theorem out1_apply (x0 : Vec Ideal S1024x512 .f32) (x1 : Vec Ideal S2048x512 .f32) (b : Fin 1024) (j : Fin 2048) :
    out1 (F := Ideal) x0 x1 (ix2 b j) = Cert.Spec.cosRow (fun d => x0 (ix2 b d)) (fun e => x1 (ix2 j e)) := by
  unfold out1
  by_cases hj : j.val < 1024
  · rw [idx_lo b j ⟨j.val, hj⟩ rfl]
    refine (canon_pair_snd rSimHi rSimLo _ _ _ (lo_not_hi b _)).trans ?_
    refine (Cert.KernelIdeal.Pay.pay1_lo_apply _ _ b _).trans ?_
    exact congrArg₂ Cert.Spec.cosRow (funext fun d => ld_qry x0 b d) (funext fun k => ld_tabLo x1 j _ rfl k)
  · have hj' : j.val - 1024 < 1024 := by have := j.isLt; omega
    have hj2 : 1024 + (j.val - 1024) = j.val := by omega
    rw [idx_hi b j ⟨j.val - 1024, hj'⟩ hj2]
    refine (canon_pair_fst rSimHi rSimLo _ _ _).trans ?_
    refine (Cert.KernelIdeal.Pay.pay1_hi_apply _ _ b _).trans ?_
    exact congrArg₂ Cert.Spec.cosRow (funext fun d => ld_qry x0 b d) (funext fun k => ld_tabHi x1 j _ hj2 k)

/-- So column j of the output buffer depends on the table buffer only through its row j. -/
theorem out1_congr_row (x0 : Vec Ideal S1024x512 .f32) (x1 x1' : Vec Ideal S2048x512 .f32) (b : Fin 1024) (j : Fin 2048)
    (h : ∀ k : Fin 512, x1 (ix2 j k) = x1' (ix2 j k)) :
    out1 (F := Ideal) x0 x1 (ix2 b j) = out1 (F := Ideal) x0 x1' (ix2 b j) := by
  rw [out1_apply, out1_apply]
  exact congrArg _ (funext h)

end Cert.KernelIdeal.Hand

end
-- ==== Proof.KI.Val1Loc.lean ====
/-
  What the second region writes back does not depend on stale words in the table buffer.

  At a point t the table buffer is filled from the block of table rows 2048 t …; at the last point
  that block overhangs the table, the fetch moves only the rows inside it, and the rest of the buffer
  keeps whatever it held. The body's result at column j reads the table buffer through row j alone
  (the gated inner product of a query row with the unit vector of that row), and the write-back keeps
  exactly the columns below the number of rows the fetch moved: at every point the two cuts are the
  same number, and a table row is never cut along its length. So on every column written back the
  row read was one the fetch moved, where a filled buffer holds the fetched block whatever was there
  before. Hence the part written back is the same for any earlier contents, in particular for the
  zero word.
-/
import proofs.«179560_j38457137168829_2_alg».proof.Proof.KI.Data
import proofs.«179560_j38457137168829_2_alg».proof.Proof.KI.Val1
import proofs.«179560_j38457137168829_2_alg».proof.Proof.Spec
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window BodyObligationLoose)

variable (V : (c : Dev nD) → (b : Ref sig .tc) → Buf (Elt Ideal) ((c : Thread nD τ).loc b))

/-- How the transfers of the second region cut their blocks, at every point: the table block keeps as
    many rows as the result block keeps columns, and every table row is kept whole. -/
theorem clip_facts1 : ∀ t : Fin cfg1.N,
    win1_1.xsize (grid1.coords t) (0 : Fin 2) = win1_2.xsize (grid1.coords t) (1 : Fin 2)
    ∧ win1_1.xsize (grid1.coords t) (1 : Fin 2) = 512 :=
  (by decide +kernel : ∀ t : Fin grid1.N, _)

/-- A table buffer filled from a fetched block `g` holds, on a row the fetch moved, that row of `g`,
    whatever it held before. -/
theorem fill_row_eq (i : grid1.Coords) (d d' : Vec Ideal S2048x512 .f32)
    (g : ((cfg1.win 1).xblock i).Idx → Elt Ideal .f32) (j : Fin 2048) (e : Fin 512)
    (hj : j.val < win1_1.xsize i (0 : Fin 2)) (he : e.val < win1_1.xsize i (1 : Fin 2)) :
    (cfg1.win 1).fill i d g (ix2 j e) = (cfg1.win 1).fill i d' g (ix2 j e) := by
  have hm : (cfg1.win 1).moved i (ix2 j e) = true :=
    ((cfg1.win 1).moved_iff i (ix2 j e)).mpr fun a => by
      match a with
      | ⟨0, _⟩ => exact hj
      | ⟨1, _⟩ => exact he
  unfold Window.fill
  rw [dif_pos hm, dif_pos hm]

/-- Column j of the body's result reads the table buffer through row j only; so on a column below the
    number of rows the fetch moved, the result does not depend on what the buffer held before the fetch. -/
theorem out1_fill_congr
    (i : grid1.Coords) (x0 : Vec Ideal S1024x512 .f32) (d d' : Vec Ideal S2048x512 .f32)
    (g : ((cfg1.win 1).xblock i).Idx → Elt Ideal .f32)
    (hrows : win1_1.xsize i (0 : Fin 2) = win1_2.xsize i (1 : Fin 2))
    (hfull : win1_1.xsize i (1 : Fin 2) = 512)
    (b : Fin 1024) (j : Fin 2048) (hj : j.val < win1_2.xsize i (1 : Fin 2)) :
    out1 (F := Ideal) x0 ((cfg1.win 1).fill i d g) (ix2 b j)
      = out1 (F := Ideal) x0 ((cfg1.win 1).fill i d' g) (ix2 b j) := by
  rw [out1_apply, out1_apply]
  refine congrArg (Cert.Spec.cosRow _) (funext fun e => ?_)
  exact fill_row_eq i d d' g j e (by rw [hrows]; exact hj) (by rw [hfull]; exact e.isLt)

/-- The columns of the result written back at point t do not depend on what the table buffer held past
    the rows fetched into it. -/
theorem hloc1
    (c : Dev nD) (t : Fin cfg1.N) (d : Vec Ideal S2048x512 .f32) :
    (cfg1.win 2).cut (cfg1.grid.coords t) (out1 (iblk1 V c 0 t) ((cfg1.win 1).fill (cfg1.grid.coords t) d (iblk1 V c 1 t)))
      = (cfg1.win 2).cut (cfg1.grid.coords t) (out1 (iblk1 V c 0 t) (tab1 V c t)) := by
  obtain ⟨hrows, hfull⟩ := clip_facts1 t
  funext y
  show out1 (F := Ideal) (iblk1 V c 0 t) ((cfg1.win 1).fill (cfg1.grid.coords t) d (iblk1 V c 1 t))
        ((cfg1.win 2).xinj (cfg1.grid.coords t) y)
    = out1 (F := Ideal) (iblk1 V c 0 t) (tab1 V c t) ((cfg1.win 2).xinj (cfg1.grid.coords t) y)
  rw [eq_ix2 ((cfg1.win 2).xinj (cfg1.grid.coords t) y)]
  unfold tab1
  exact out1_fill_congr (cfg1.grid.coords t) (iblk1 V c 0 t) d _ (iblk1 V c 1 t) hrows hfull _ _ (y 1).isLt

/-- With it the loose body obligation of the second region holds as the data state it. -/
example (c : Dev nD) :
    BodyObligationLoose (dat1 (F := Ideal) V c) (defs₀ (F := Ideal)) Variants.none () Set.univ :=
  body_obligation1_of V c (hloc1 V c)

end Cert.KernelIdeal.Hand

end
-- ==== Proof.KI.Val1Final.lean ====
/-
  The result array after the second region, as one function of the arrays the region is entered
  with.  The region visits 49 blocks of 2048 table rows; the last one overhangs the table, and the
  result's last block of 2048 columns overhangs the result alike, by 352.  At each block the part of
  the output buffer written back is, entry by entry, the gated cosine of a query row and a table row
  inside the table: the query buffer holds the whole query array, and a column written back
  corresponds to a table row the fetch moved.  The blocks written back cover the result's columns,
  block t the columns from 2048·t up to the next block or the array's end, so the array ends
  holding the gated cosines of all query rows against all table rows.
-/
import proofs.«179560_j38457137168829_2_alg».proof.Proof.KI.Data
import proofs.«179560_j38457137168829_2_alg».proof.Proof.KI.Val1
import proofs.«179560_j38457137168829_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The three windows over the grid -/

/-- The printed index maps and cuts, decided once over the 49 points: the query window stays at
    block (0, 0); the table window is at block (t, 0) and the result window at block (0, t), and
    both move min 2048 (100000 − 2048·t) coordinates along the table-row axis and all of the other. -/
theorem idx_facts1 : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_1.xsize (grid1.coords t) (0 : Fin 2) = min 2048 (100000 - t.val * 2048)
    ∧ win1_1.xsize (grid1.coords t) (1 : Fin 2) = 512
    ∧ win1_2.xsize (grid1.coords t) (0 : Fin 2) = 1024
    ∧ win1_2.xsize (grid1.coords t) (1 : Fin 2) = min 2048 (100000 - t.val * 2048) :=
  (by decide +kernel : ∀ t : Fin grid1.N, _)

variable (V : (c : Dev nD) → (b : Ref sig .tc) → Buf (Elt Ideal) ((c : Thread nD τ).loc b))

/-! ## What the two input buffers hold at a point -/

/-- The query buffer holds the query array: window 0's one block is the whole array. -/
theorem qry_read (c : Dev nD) (t : Fin cfg1.N) (b : Fin 1024) (d : Fin 512) :
    iblk1 (F := Ideal) V c 0 t (ix2 b d) = V c main_v2 (ix2 b d) := by
  obtain ⟨e0, e1, -⟩ := idx_facts1 t
  show V c main_v2 (((cfg1.win 0).blk t).view.emb (ix2 b d)) = V c main_v2 (ix2 b d)
  refine congrArg (V c main_v2) (funext fun a => Fin.ext ?_)
  match a with
  | ⟨0, _⟩ => show win1_0.index t (0 : Fin 2) * 1024 + 1 * b.val = b.val; omega
  | ⟨1, _⟩ => show win1_0.index t (1 : Fin 2) * 512 + 1 * d.val = d.val; omega

/-- A row of the table buffer that the fetch moved is the table's row 2048·t + j. -/
theorem tab_read (c : Dev nD) (t : Fin cfg1.N) (j : Fin 2048) (e : Fin 512)
    (hj : j.val < win1_1.xsize (grid1.coords t) (0 : Fin 2))
    (k : Fin 100000) (hk : k.val = t.val * 2048 + j.val) :
    tab1 (F := Ideal) V c t (ix2 j e) = V c main_arg5 (ix2 k e) := by
  obtain ⟨-, -, e2, e3, -, -, -, x1, -⟩ := idx_facts1 t
  have hm : (cfg1.win 1).moved (cfg1.grid.coords t) (ix2 j e) = true :=
    ((cfg1.win 1).moved_iff _ _).mpr fun a => by
      match a with
      | ⟨0, _⟩ => exact hj
      | ⟨1, _⟩ => show e.val < win1_1.xsize (grid1.coords t) (1 : Fin 2); rw [x1]; exact e.isLt
  unfold tab1 Window.fill
  show (if h : (cfg1.win 1).moved (cfg1.grid.coords t) (ix2 j e) = true then _ else _) = _
  rw [dif_pos hm]
  show V c main_arg5 (((cfg1.win 1).blk t).view.emb _) = V c main_arg5 (ix2 k e)
  refine congrArg (V c main_arg5) (funext fun a => Fin.ext ?_)
  match a with
  | ⟨0, _⟩ => show win1_1.index t (0 : Fin 2) * 2048 + 1 * j.val = k.val; omega
  | ⟨1, _⟩ => show win1_1.index t (1 : Fin 2) * 512 + 1 * e.val = e.val; omega

/-! ## What a point writes back -/

/-- What point t writes back is block t of the gated cosines of the query rows against the
    table rows. -/
theorem flushed1_eq (c : Dev nD) (t : Fin cfg1.N) :
    (dat1 (F := Ideal) V c).flushed 2 t
      = ((cfg1.win 2).blk t).view.read (Elt Ideal) (Cert.Spec.sims (V c main_v2) (V c main_arg5)) := by
  show (cfg1.win 2).cut (cfg1.grid.coords t) ((dat1 V c).after 2 t) = _
  rw [after1_2]
  obtain ⟨-, -, -, -, e4, e5, x10, -, x20, x21⟩ := idx_facts1 t
  funext y
  have hb : (y 0).val < 1024 := Nat.lt_of_lt_of_eq (y 0).isLt x20
  have hj' : (y 1).val < win1_2.xsize (grid1.coords t) (1 : Fin 2) := (y 1).isLt
  have hj : (y 1).val < 2048 := by rw [x21] at hj'; omega
  have exi : (cfg1.win 2).xinj (cfg1.grid.coords t) y
      = ix2 (⟨(y 0).val, hb⟩ : Fin 1024) (⟨(y 1).val, hj⟩ : Fin 2048) :=
    funext fun a => by
      match a with
      | ⟨0, _⟩ => rfl
      | ⟨1, _⟩ => rfl
  show out1 (iblk1 V c 0 t) (tab1 V c t) ((cfg1.win 2).xinj (cfg1.grid.coords t) y)
      = Cert.Spec.sims (V c main_v2) (V c main_arg5) (((cfg1.win 2).blk t).view.emb y)
  rw [exi]
  refine (out1_apply (iblk1 V c 0 t) (tab1 V c t) _ _).trans ?_
  refine congrArg₂ Cert.Spec.cosRow (funext fun d => ?_) (funext fun e => ?_)
  · refine (qry_read V c t _ d).trans (congrArg (fun r => V c main_v2 (ix2 r d)) (Fin.ext ?_))
    show (y 0).val = win1_2.index t (0 : Fin 2) * 1024 + 1 * (y 0).val
    omega
  · refine tab_read V c t _ e (by rw [x10, ← x21]; exact hj') _ ?_
    show win1_2.index t (1 : Fin 2) * 2048 + 1 * (y 1).val = t.val * 2048 + (y 1).val
    omega

/-! ## The blocks written back cover the result -/

/-- An index of the result lies in point t's block iff each coordinate lies in the block's range
    inside the array. -/
theorem mem_blk1 (t : Fin cfg1.N) (i : S1024x100000.Idx) :
    i ∈ ((cfg1.win 2).blk t).view.set
      ↔ ∀ a : Fin 2, win1_2.index t a * S1024x2048.size a ≤ (i a).val
          ∧ (i a).val < win1_2.index t a * S1024x2048.size a + win1_2.xsize (grid1.coords t) a := by
  show i ∈ ((View.whole main_v3).slice (win1_2.rect t)).set ↔ _
  rw [View.set_slice_whole, Rect.mem_set_unit]
  exact Iff.rfl

/-- Column n of the result lies in block n / 2048, inside the part of it written back. -/
theorem cover1_blocks (i : S1024x100000.Idx) :
    ∃ t : Fin cfg1.N, (cfg1.win 2).flush t = true ∧ i ∈ ((cfg1.win 2).blk t).view.set := by
  have hN : grid1.N = 49 := N_1
  have h0 : (i 0).val < 1024 := (i 0).isLt
  have h1 : (i 1).val < 100000 := (i 1).isLt
  obtain ⟨t, ht⟩ : ∃ t : Fin cfg1.N, t.val = (i 1).val / 2048 :=
    ⟨⟨(i 1).val / 2048, by show _ < grid1.N; rw [hN]; omega⟩, rfl⟩
  refine ⟨t, flush1_2 t, ?_⟩
  rw [mem_blk1]
  obtain ⟨-, -, -, -, e4, e5, -, -, x20, x21⟩ := idx_facts1 t
  intro a
  match a with
  | ⟨0, _⟩ =>
    show win1_2.index t (0 : Fin 2) * 1024 ≤ (i 0).val
      ∧ (i 0).val < win1_2.index t (0 : Fin 2) * 1024 + win1_2.xsize (grid1.coords t) (0 : Fin 2)
    rw [e4, x20]; omega
  | ⟨1, _⟩ =>
    show win1_2.index t (1 : Fin 2) * 2048 ≤ (i 1).val
      ∧ (i 1).val < win1_2.index t (1 : Fin 2) * 2048 + win1_2.xsize (grid1.coords t) (1 : Fin 2)
    rw [e5, x21]; omega

/-! ## The result array after the region -/

/-- The result array ends holding the gated cosines of all query rows against all table rows. -/
theorem final1 (c : Dev nD) :
    (dat1 (F := Ideal) V c).arrAt 2 cfg1.N = Cert.Spec.sims (V c main_v2) (V c main_arg5) :=
  (dat1 (F := Ideal) V c).arrAt_eq_of_cover 2 _ (fun t _ => flushed1_eq V c t) cover1_blocks

end Cert.KernelIdeal.Hand

end
-- ==== Proof.KI.Claims.lean ====
/-
  The kernel's claims at the extended reals: the run of the program with the second region's exact body
  obligation, the final valuation read at the result array — the gated cosine similarities of the unit
  query rows the first region leaves against the table, which is the specification's function of the
  launch contents — and at each argument array.
-/
import proofs.«179560_j38457137168829_2_alg».proof.Proof.KI.Host
import proofs.«179560_j38457137168829_2_alg».proof.Proof.KI.Val0
import proofs.«179560_j38457137168829_2_alg».proof.Proof.KI.Val1Loc
import proofs.«179560_j38457137168829_2_alg».proof.Proof.KI.Val1Final
import proofs.«179560_j38457137168829_2_alg».proof.Proof.Spec
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

/-- The specification's function of the launch contents of the six argument arrays. -/
def spec (c : Dev nD) : S1024x100000.Idx → EReal :=
  Cert.Spec.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The second region's body obligation, its locality hypothesis read off the arithmetic. -/
theorem body_obligation1 (c : Dev nD) :
    BodyObligationLoose (dat1 (F := Ideal) (E2 m) c) (defs₀ (F := Ideal)) Variants.none () Set.univ :=
  body_obligation1_of (E2 m) c (hloc1 (E2 m) c)

/-- The query array the first region leaves is the specification's unit query rows. -/
theorem E2_main_v2 (c : Dev nD) :
    (E2 m c main_v2 : S1024x512.Idx → EReal) = Cert.Spec.Q (m ((c : Thread nD τ).loc main_arg0)) (m ((c : Thread nD τ).loc main_arg1))
      (m ((c : Thread nD τ).loc main_arg2)) (m ((c : Thread nD τ).loc main_arg3)) (m ((c : Thread nD τ).loc main_arg4)) := by
  have h := (B2_arr m c 5).trans (final0 (E1 m) c)
  rw [E1_main_v0, E1_main_v1] at h
  rw [show E1 m c main_arg0 = m ((c : Thread nD τ).loc main_arg0) from B1_of m c main_arg0 (by decide) (by decide),
    show E1 m c main_arg2 = m ((c : Thread nD τ).loc main_arg2) from B1_of m c main_arg2 (by decide) (by decide),
    show E1 m c main_arg4 = m ((c : Thread nD τ).loc main_arg4) from B1_of m c main_arg4 (by decide) (by decide)] at h
  exact h

/-- The table reaches the second region as launched. -/
theorem E2_main_arg5 (c : Dev nD) : E2 m c main_arg5 = m ((c : Thread nD τ).loc main_arg5) :=
  (B2_of_ne m c main_arg5 (by decide)).trans (B1_of m c main_arg5 (by decide) (by decide))

/-- The result array at the end is the specification's function of the launch contents. -/
theorem result_eq (c : Dev nD) : (B3 m c (Proc.devRef .tc main_v3) : S1024x100000.Idx → EReal) = spec m c := by
  have h := (B3_main_v3 m c).trans (final1 (E2 m) c)
  rw [E2_main_v2 m c, E2_main_arg5] at h
  exact h

/-- THE VALUE RUN: every execution of @main terminates with the result array at the specification's
    function of the launch contents and every argument array as launched. -/
theorem run_value : θ_run defs (onTc (τ := τ) (main (F := Ideal))) ⟨m, fun _ => 0, ρ⟩ (fun r => ∀ c : Dev nD,
      r.2.mem ((c.tc : Thread nD τ).loc main_v3) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v3 (by decide))).trans (result_eq m c),
      (h c _ (mem_uc main_arg0 (by decide))).trans (B3_main_arg0 m c),
      (h c _ (mem_uc main_arg1 (by decide))).trans (B3_main_arg1 m c),
      (h c _ (mem_uc main_arg2 (by decide))).trans (B3_main_arg2 m c),
      (h c _ (mem_uc main_arg3 (by decide))).trans (B3_main_arg3 m c),
      (h c _ (mem_uc main_arg4 (by decide))).trans (B3_main_arg4 m c),
      (h c _ (mem_uc main_arg5 (by decide))).trans (B3_main_arg5 m c)⟩)
    (run_all m ρ (body_obligation1 m))

end Cert.KernelIdeal.Hand

end
-- ==== Proof.RefIsG.lean ====
/-
  The reference program computes `G`.

  Read one operation at a time, the reference is: two matrix products against transposed weight
  matrices, each followed by a bias copied down the rows, with a cut-off below at the zero word
  between them; the sum of squares along each row of the result, its square root floored at ε, and
  the division of the row by that length; the same normalisation of every row of the table; the
  product of the unit query rows with the transposed unit table; and the comparison with the
  threshold that keeps an entry or puts the zero word in its place.

  Each lemma below reads one of these stages at explicit coordinates — (r, j), (r, d), (n, d),
  (r, n) — and identifies it with the row-wise function of `Cert.Spec` that describes it. The index
  maps composed on the way are each a pair or a single coordinate again: a transpose swaps the two
  coordinates, a copied row or column forgets one of them, and term k of a product at (r, c) reads
  (r, k) on the left and (k, c) on the right. The row sums start from the zero word, which is the
  number zero, so they are the bare sums of the specification; every other literal stays the word it
  is printed as. No algebraic law is used anywhere: the two sides are the same expression.
-/
import proofs.«179560_j38457137168829_2_alg».proof.Proof.Gen.ReferenceIdeal.Read
import proofs.«179560_j38457137168829_2_alg».proof.Proof.Spec
import Idealize.ShloMosaic.PureOps.Ideal.Laws
import Idealize.ShloMosaic.Lib.ValueIdx

noncomputable section

namespace Cert.RefValue

open Cert.ReferenceIdeal Cert.ReferenceIdeal.Read Idealize.ShloMosaic Idealize.ShloMosaic.ValueIdx

/-- Left operand of the first product at (r, j), term k: entry (r, k) of the queries. -/
theorem lidx1 (r : Fin 1024) (j : Fin 2048) (k : Fin 1024) :
    lidx_main_v1 (ix2 r j) k = ix2 r k :=
  funext fun a => Fin.ext (by match a with | ⟨0, _⟩ => rfl | ⟨1, _⟩ => rfl)

/-- Right operand of the first product at (r, j), term k, read through the transpose: entry (j, k) of W1. -/
theorem ridx1 (r : Fin 1024) (j : Fin 2048) (k : Fin 1024) :
    idx_main_v0 (ridx_main_v1 (ix2 r j) k) = ix2 j k :=
  funext fun a => Fin.ext (by match a with | ⟨0, _⟩ => rfl | ⟨1, _⟩ => rfl)

/-- The first bias, copied down the rows, at (r, j): entry j. -/
theorem bidx1 (r : Fin 1024) (j : Fin 2048) :
    idx_main_v2 (idx_main_v3 (ix2 r j)) = ix1 j :=
  funext fun a => Fin.ext (by match a with | ⟨0, _⟩ => rfl)

/-- The hidden layer of the reference at (r, j) is the hidden layer of row r of the queries. -/
theorem hid_eq (x0 : (⟨S1024x1024, .f32⟩ : BufTy).Contents (Elt Ideal)) (x1 : (⟨S2048x1024, .f32⟩ : BufTy).Contents (Elt Ideal))
    (x2 : (⟨S2048, .f32⟩ : BufTy).Contents (Elt Ideal)) (r : Fin 1024) (j : Fin 2048) :
    val_main_v5 (F := Ideal) x0 x1 x2 (ix2 r j) = Cert.Spec.hidRow (fun k => x0 (ix2 r k)) x1 x2 j := by
  rw [val_main_v5_apply, val_main_v4_apply, val_main_v1_apply, val_main_v3_apply, val_main_v2_apply,
    val_main_call0_v0_apply, val_main_call0_cst_apply]
  simp only [val_main_v0_apply, lidx1, ridx1, bidx1, Ideal.maximumf_def, Ideal.addf_def, Ideal.ofBits_def]
  rfl

/-- Left operand of the second product at (r, d), term j: entry (r, j) of the hidden layer. -/
theorem lidx7 (r : Fin 1024) (d : Fin 512) (j : Fin 2048) :
    lidx_main_v7 (ix2 r d) j = ix2 r j :=
  funext fun a => Fin.ext (by match a with | ⟨0, _⟩ => rfl | ⟨1, _⟩ => rfl)

/-- Right operand of the second product at (r, d), term j, read through the transpose: entry (d, j) of W2. -/
theorem ridx7 (r : Fin 1024) (d : Fin 512) (j : Fin 2048) :
    idx_main_v6 (ridx_main_v7 (ix2 r d) j) = ix2 d j :=
  funext fun a => Fin.ext (by match a with | ⟨0, _⟩ => rfl | ⟨1, _⟩ => rfl)

/-- The second bias, copied down the rows, at (r, d): entry d. -/
theorem bidx7 (r : Fin 1024) (d : Fin 512) :
    idx_main_v8 (idx_main_v9 (ix2 r d)) = ix1 d :=
  funext fun a => Fin.ext (by match a with | ⟨0, _⟩ => rfl)

/-- The second affine layer of the reference at (r, d) is the second layer of row r of the queries. -/
theorem out_eq (x0 : (⟨S1024x1024, .f32⟩ : BufTy).Contents (Elt Ideal)) (x1 : (⟨S2048x1024, .f32⟩ : BufTy).Contents (Elt Ideal))
    (x2 : (⟨S2048, .f32⟩ : BufTy).Contents (Elt Ideal)) (x3 : (⟨S512x2048, .f32⟩ : BufTy).Contents (Elt Ideal))
    (x4 : (⟨S512, .f32⟩ : BufTy).Contents (Elt Ideal)) (r : Fin 1024) (d : Fin 512) :
    val_main_v10 (F := Ideal) x0 x1 x2 x3 x4 (ix2 r d)
      = Cert.Spec.outRow (fun k => x0 (ix2 r k)) x1 x2 x3 x4 d := by
  rw [val_main_v10_apply, val_main_v7_apply, val_main_v9_apply, val_main_v8_apply]
  simp only [val_main_v6_apply, lidx7, ridx7, bidx7, hid_eq, Ideal.addf_def]
  rfl

/-- Term d of the sum of squares of query row r: entry (r, d). -/
theorem sqidx (r : Fin 1024) (z : Fin 1) (d : Fin 512) :
    idx_main_call1_v1 (idx_main_call1_v2 (ix2 r z)) d = ix2 r d :=
  funext fun a => Fin.ext (by match a with | ⟨0, _⟩ => rfl | ⟨1, _⟩ => rfl)

/-- The floored length of the reference's query row r (kept as a one-entry column). -/
theorem qlen_eq (x0 : (⟨S1024x1024, .f32⟩ : BufTy).Contents (Elt Ideal)) (x1 : (⟨S2048x1024, .f32⟩ : BufTy).Contents (Elt Ideal))
    (x2 : (⟨S2048, .f32⟩ : BufTy).Contents (Elt Ideal)) (x3 : (⟨S512x2048, .f32⟩ : BufTy).Contents (Elt Ideal))
    (x4 : (⟨S512, .f32⟩ : BufTy).Contents (Elt Ideal)) (r : Fin 1024) (z : Fin 1) :
    val_main_v13 (F := Ideal) x0 x1 x2 x3 x4 (ix2 r z)
      = Cert.Spec.len (Cert.Spec.outRow (fun k => x0 (ix2 r k)) x1 x2 x3 x4) := by
  rw [val_main_v13_apply, val_main_v11_apply, val_main_call1_v2_apply, val_main_call1_v1_apply,
    val_main_v12_apply, val_main_cst_apply, val_main_call1_cst_apply]
  simp only [val_main_call1_v0_apply, sqidx, out_eq, Ideal.maximumf_def, Ideal.hostUnary_sqrt_def,
    Ideal.mulf_def, Ideal.ofBits_def, Ideal.ofBits_zero_f32, zero_add]
  rfl

/-- The length column copied along a row: (r, d) reads the one entry of row r. -/
theorem lenidx (r : Fin 1024) (d : Fin 512) :
    idx_main_v17 (ix2 r d) = ix2 r (⟨0, Nat.one_pos⟩ : Fin 1) :=
  funext fun a => Fin.ext (by match a with | ⟨0, _⟩ => rfl | ⟨1, _⟩ => rfl)

/-- The reference's unit query rows are `Q`, entry by entry. -/
theorem q_at (x0 : (⟨S1024x1024, .f32⟩ : BufTy).Contents (Elt Ideal)) (x1 : (⟨S2048x1024, .f32⟩ : BufTy).Contents (Elt Ideal))
    (x2 : (⟨S2048, .f32⟩ : BufTy).Contents (Elt Ideal)) (x3 : (⟨S512x2048, .f32⟩ : BufTy).Contents (Elt Ideal))
    (x4 : (⟨S512, .f32⟩ : BufTy).Contents (Elt Ideal)) (r : Fin 1024) (d : Fin 512) :
    val_main_v18 (F := Ideal) x0 x1 x2 x3 x4 (ix2 r d) = Cert.Spec.Q x0 x1 x2 x3 x4 (ix2 r d) := by
  rw [val_main_v18_apply, val_main_v17_apply, lenidx, qlen_eq, out_eq, Ideal.hostDivf_def]
  rfl

/-- The reference's unit query rows are `Q`. -/
theorem q_eq (x0 : (⟨S1024x1024, .f32⟩ : BufTy).Contents (Elt Ideal)) (x1 : (⟨S2048x1024, .f32⟩ : BufTy).Contents (Elt Ideal))
    (x2 : (⟨S2048, .f32⟩ : BufTy).Contents (Elt Ideal)) (x3 : (⟨S512x2048, .f32⟩ : BufTy).Contents (Elt Ideal))
    (x4 : (⟨S512, .f32⟩ : BufTy).Contents (Elt Ideal)) :
    val_main_v18 (F := Ideal) x0 x1 x2 x3 x4 = Cert.Spec.Q x0 x1 x2 x3 x4 := by
  funext i
  obtain ⟨r, d, rfl⟩ : ∃ (r : Fin 1024) (d : Fin 512), i = ix2 r d := ⟨i 0, i 1, eq_ix2 i⟩
  exact q_at x0 x1 x2 x3 x4 r d

/-- Term e of the sum of squares of table row n: entry (n, e). -/
theorem csqidx (n : Fin 100000) (z : Fin 1) (e : Fin 512) :
    idx_main_call2_v1 (idx_main_call2_v2 (ix2 n z)) e = ix2 n e :=
  funext fun a => Fin.ext (by match a with | ⟨0, _⟩ => rfl | ⟨1, _⟩ => rfl)

/-- The floored length of table row n (kept as a one-entry column). -/
theorem clen_eq (x5 : (⟨S100000x512, .f32⟩ : BufTy).Contents (Elt Ideal)) (n : Fin 100000) (z : Fin 1) :
    val_main_v16 (F := Ideal) x5 (ix2 n z) = Cert.Spec.len (fun e => x5 (ix2 n e)) := by
  rw [val_main_v16_apply, val_main_v14_apply, val_main_call2_v2_apply, val_main_call2_v1_apply,
    val_main_v15_apply, val_main_cst_0_apply, val_main_call2_cst_apply]
  simp only [val_main_call2_v0_apply, csqidx, Ideal.maximumf_def, Ideal.hostUnary_sqrt_def,
    Ideal.mulf_def, Ideal.ofBits_def, Ideal.ofBits_zero_f32, zero_add]
  rfl

/-- The table's length column copied along a row: (n, d) reads the one entry of row n. -/
theorem clenidx (n : Fin 100000) (d : Fin 512) :
    idx_main_v19 (ix2 n d) = ix2 n (⟨0, Nat.one_pos⟩ : Fin 1) :=
  funext fun a => Fin.ext (by match a with | ⟨0, _⟩ => rfl | ⟨1, _⟩ => rfl)

/-- The reference's normalised table at (n, d) is the unit vector of table row n at d. -/
theorem cunit_eq (x5 : (⟨S100000x512, .f32⟩ : BufTy).Contents (Elt Ideal)) (n : Fin 100000) (d : Fin 512) :
    val_main_v20 (F := Ideal) x5 (ix2 n d) = Cert.Spec.unit (fun e => x5 (ix2 n e)) d := by
  rw [val_main_v20_apply, val_main_v19_apply, clenidx, clen_eq, Ideal.hostDivf_def]
  rfl

/-- The transposed table at (d, n) reads the table at (n, d). -/
theorem tidx (d : Fin 512) (n : Fin 100000) :
    idx_main_v21 (ix2 d n) = ix2 n d :=
  funext fun a => Fin.ext (by match a with | ⟨0, _⟩ => rfl | ⟨1, _⟩ => rfl)

/-- The transposed normalised table at (d, n) is the unit vector of table row n at d. -/
theorem cunitT_eq (x5 : (⟨S100000x512, .f32⟩ : BufTy).Contents (Elt Ideal)) (d : Fin 512) (n : Fin 100000) :
    val_main_v21 (F := Ideal) x5 (ix2 d n) = Cert.Spec.unit (fun e => x5 (ix2 n e)) d := by
  rw [val_main_v21_apply, tidx, cunit_eq]

/-- Left operand of the last product at (r, n), term d: entry (r, d) of the unit queries. -/
theorem lidx22 (r : Fin 1024) (n : Fin 100000) (d : Fin 512) :
    lidx_main_v22 (ix2 r n) d = ix2 r d :=
  funext fun a => Fin.ext (by match a with | ⟨0, _⟩ => rfl | ⟨1, _⟩ => rfl)

/-- Right operand of the last product at (r, n), term d: entry (d, n) of the transposed unit table. -/
theorem ridx22 (r : Fin 1024) (n : Fin 100000) (d : Fin 512) :
    ridx_main_v22 (ix2 r n) d = ix2 d n :=
  funext fun a => Fin.ext (by match a with | ⟨0, _⟩ => rfl | ⟨1, _⟩ => rfl)

/-- The similarity at (r, n): the inner product of unit query row r with the unit vector of table row n. -/
theorem dot_eq (x0 : (⟨S1024x1024, .f32⟩ : BufTy).Contents (Elt Ideal)) (x1 : (⟨S2048x1024, .f32⟩ : BufTy).Contents (Elt Ideal))
    (x2 : (⟨S2048, .f32⟩ : BufTy).Contents (Elt Ideal)) (x3 : (⟨S512x2048, .f32⟩ : BufTy).Contents (Elt Ideal))
    (x4 : (⟨S512, .f32⟩ : BufTy).Contents (Elt Ideal))
    (x5 : (⟨S100000x512, .f32⟩ : BufTy).Contents (Elt Ideal)) (r : Fin 1024) (n : Fin 100000) :
    val_main_v22 (F := Ideal) x0 x1 x2 x3 x4 x5 (ix2 r n)
      = ∑ d : Fin 512, Cert.Spec.Q x0 x1 x2 x3 x4 (ix2 r d) * Cert.Spec.unit (fun e => x5 (ix2 n e)) d := by
  rw [val_main_v22_apply]
  simp only [lidx22, ridx22, q_at, cunitT_eq]

/-- The reference's result at (r, n) is `G` there: the similarity, kept above the threshold. -/
theorem ref_at (x0 : (⟨S1024x1024, .f32⟩ : BufTy).Contents (Elt Ideal)) (x1 : (⟨S2048x1024, .f32⟩ : BufTy).Contents (Elt Ideal))
    (x2 : (⟨S2048, .f32⟩ : BufTy).Contents (Elt Ideal)) (x3 : (⟨S512x2048, .f32⟩ : BufTy).Contents (Elt Ideal))
    (x4 : (⟨S512, .f32⟩ : BufTy).Contents (Elt Ideal))
    (x5 : (⟨S100000x512, .f32⟩ : BufTy).Contents (Elt Ideal)) (r : Fin 1024) (n : Fin 100000) :
    val_main_v26 (F := Ideal) x0 x1 x2 x3 x4 x5 (ix2 r n) = Cert.Spec.G x0 x1 x2 x3 x4 x5 (ix2 r n) := by
  rw [val_main_v26_apply, val_main_v24_apply, val_main_v23_apply, val_main_cst_1_apply,
    val_main_v25_apply, val_main_cst_2_apply, dot_eq, Ideal.cmpf_def]
  simp only [Ideal.ofBits_def]
  rfl

/-- The reference's result stage is `G` of the arguments. -/
theorem ref_eq (x0 : (⟨Cert.ReferenceIdeal.S1024x1024, .f32⟩ : BufTy).Contents (Elt Ideal))
    (x1 : (⟨Cert.ReferenceIdeal.S2048x1024, .f32⟩ : BufTy).Contents (Elt Ideal))
    (x2 : (⟨Cert.ReferenceIdeal.S2048, .f32⟩ : BufTy).Contents (Elt Ideal))
    (x3 : (⟨Cert.ReferenceIdeal.S512x2048, .f32⟩ : BufTy).Contents (Elt Ideal))
    (x4 : (⟨Cert.ReferenceIdeal.S512, .f32⟩ : BufTy).Contents (Elt Ideal))
    (x5 : (⟨Cert.ReferenceIdeal.S100000x512, .f32⟩ : BufTy).Contents (Elt Ideal)) :
    Cert.ReferenceIdeal.Read.val_main_v26 (F := Ideal) x0 x1 x2 x3 x4 x5 = Cert.Spec.G x0 x1 x2 x3 x4 x5 := by
  funext i
  obtain ⟨r, n, rfl⟩ : ∃ (r : Fin 1024) (n : Fin 100000), i = ix2 r n := ⟨i 0, i 1, eq_ix2 i⟩
  exact ref_at x0 x1 x2 x3 x4 x5 r n

end Cert.RefValue

end
-- ==== Proof.lean ====
/-
  A two-layer perceptron on 1024 query rows, each output row scaled to unit length, then the cosine
  similarity of every query row with every row of a table of 100000 concepts, kept where it exceeds
  0.75 and zero elsewhere — computed by two kernels (blocks of 512 query rows; blocks of 2048 table
  rows, the last block overhanging the table) against the same formula written with whole-array
  operations.

  On the extended reals both programs compute one function of the six argument arrays
  (Proof/Spec.lean): the kernels' matrix products, row sums, square roots, maxima and quotients are the
  reference's, element by element, the narrower float formats of the kernels' matrix operands being
  the identity there; no algebraic law beyond that is needed, and finiteness of the inputs is not used.
  The reference's side is Proof/RefIsG.lean over its run read one operation at a time; the kernels'
  side reads each block's arithmetic at an index (Proof/KI/Pay.lean), puts the blocks together into the
  whole arrays (Proof/KI/Val0.lean, Val1.lean, Val1Final.lean) and runs the program segment by segment
  (Proof/KI/Run.lean, Claims.lean). The last block of table rows brings words nothing names into the
  staging buffer past the table's end; the columns of the result that are written back do not depend
  on them, because each column of the similarity block is computed from one table row.

  The word-level program's frame (Proof/K/RunR.lean) does not read values: its second region's buffers
  are handed to the body at any contents and taken back at any contents, and its arrays are read back
  at the end. Nothing was rewritten by the idealization, so what it preserves is trivial.
-/
import proofs.«179560_j38457137168829_2_alg».proof.Defs
import proofs.«179560_j38457137168829_2_alg».proof.Proof.Gen.Kernel
import proofs.«179560_j38457137168829_2_alg».proof.Proof.Gen.KernelIdeal
import proofs.«179560_j38457137168829_2_alg».proof.Proof.Gen.ReferenceIdeal
import proofs.«179560_j38457137168829_2_alg».proof.Proof.Gen.ReferenceIdeal.Run
import proofs.«179560_j38457137168829_2_alg».proof.Proof.Gen.ReferenceIdeal.Read
import proofs.«179560_j38457137168829_2_alg».proof.Proof.Gen.Pre_finite_inputs
import proofs.«179560_j38457137168829_2_alg».proof.Proof.K.RunR
import proofs.«179560_j38457137168829_2_alg».proof.Proof.KI.Claims
import proofs.«179560_j38457137168829_2_alg».proof.Proof.RefIsG
import Idealize.ShloMosaic.Adequacy
import Idealize.ShloMosaic.Init

noncomputable section

namespace Cert.Proof

open Idealize.ShloMosaic Idealize.SL.Sem

/-- The word-level program runs and leaves its arguments as launched. -/
theorem frame_p : Cert.frame_Kernel :=
  fun m ρ _ => Cert.Kernel.Hand.frame (F := Bits) m ρ

/-- So does the program read on the extended reals: its value run, the result forgotten. -/
theorem frame_pi : Cert.frame_KernelIdeal :=
  fun m ρ _ => (θ_run Cert.KernelIdeal.defs _ _).mono (fun _ h c => (h c).2) (Cert.KernelIdeal.Hand.run_value m ρ)

/-- The reference is host operations only: its run, the result forgotten. -/
theorem frame_ri : Cert.frame_ReferenceIdeal :=
  fun m ρ _ => (θ_run Cert.ReferenceIdeal.defs _ _).mono (fun _ h c => (h c).2) (Cert.ReferenceIdeal.Value.run (F := Ideal) m ρ)

/-- From memories that agree on the arguments both programs end with the result array at the
    specification's function of them. -/
theorem algebraic : Cert.algebraic_KernelIdeal_ReferenceIdeal := by
  intro m ρ m' ρ' _ hagree
  refine ⟨fun c => Cert.KernelIdeal.Hand.spec m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.RefValue.ref_eq, (hagree c).1, (hagree c).2.1, (hagree c).2.2.1,
    (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
